-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x1250000 : Shape := ⟨2, ![2, 1250000]⟩
abbrev S200000 : Shape := ⟨1, ![200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S32x16 .f32) (main_arg10 : FVec F S16 .f32) (main_arg11 : FVec F S16x1 .f32) (main_arg12 : FVec F S1 .f32) (main_v33 : IVec S_ 1) : IVec S_ 1 :=
  let main_v34 : FVec F S32x16 .f32 := Host.absf main_arg9
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg11
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x32 .f32) (main_arg8 : FVec F S32 .f32) (main_arg9 : FVec F S32x16 .f32) (main_arg10 : FVec F S16 .f32) (main_arg11 : FVec F S16x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x128 .f32) (main_arg1 : IVec S2x1250000 32) (main_arg2 : IVec S200000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x16 .f32) (main_arg10 : FVec F S16 .f32) (main_arg11 : FVec F S16x1 .f32) (main_arg12 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S200000x128 : Shape := ⟨2, ![200000, 128]⟩
abbrev S2x1250000 : Shape := ⟨2, ![2, 1250000]⟩
abbrev S200000 : Shape := ⟨1, ![200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S200000x1 : Shape := ⟨2, ![200000, 1]⟩
abbrev S200000x64 : Shape := ⟨2, ![200000, 64]⟩
abbrev S10000x128 : Shape := ⟨2, ![10000, 128]⟩
abbrev S10000x64 : Shape := ⟨2, ![10000, 64]⟩
abbrev S1250000x64 : Shape := ⟨2, ![1250000, 64]⟩
abbrev S1x64 : Shape := ⟨2, ![1, 64]⟩
abbrev S10000x1 : Shape := ⟨2, ![10000, 1]⟩
abbrev S200000x32 : Shape := ⟨2, ![200000, 32]⟩
abbrev S10000x32 : Shape := ⟨2, ![10000, 32]⟩
abbrev S1250000x32 : Shape := ⟨2, ![1250000, 32]⟩
abbrev S1x32 : Shape := ⟨2, ![1, 32]⟩
abbrev S2048x32 : Shape := ⟨2, ![2048, 32]⟩
abbrev S2048 : Shape := ⟨1, ![2048]⟩
abbrev S2048x1 : Shape := ⟨2, ![2048, 1]⟩
abbrev S1x16 : Shape := ⟨2, ![1, 16]⟩
abbrev S1x1 : Shape := ⟨2, ![1, 1]⟩
abbrev S2048x16 : Shape := ⟨2, ![2048, 16]⟩

abbrev nBuf : Space → Nat
  | .hbm => 124
  | .vmem => 49
  | .smem => 0
  | _ => 0

abbrev bufTy : (tb : Table) → Fin (tcTables nBuf tb) → BufTy
  | .hbm, ⟨0, _⟩ => ⟨S200000x128, .f32⟩
  | .hbm, ⟨1, _⟩ => ⟨S2x1250000, .i32⟩
  | .hbm, ⟨2, _⟩ => ⟨S200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x16, .f32⟩
  | .hbm, ⟨10, _⟩ => ⟨S16, .f32⟩
  | .hbm, ⟨11, _⟩ => ⟨S16x1, .f32⟩
  | .hbm, ⟨12, _⟩ => ⟨S1, .f32⟩
  | .hbm, ⟨13, _⟩ => ⟨S1x1250000, .i32⟩
  | .hbm, ⟨14, _⟩ => ⟨S1250000, .i32⟩
  | .hbm, ⟨15, _⟩ => ⟨S1x1250000, .i32⟩
  | .hbm, ⟨16, _⟩ => ⟨S1250000, .i32⟩
  | .hbm, ⟨17, _⟩ => ⟨S_, .f32⟩
  | .hbm, ⟨18, _⟩ => ⟨S1250000, .f32⟩
  | .hbm, ⟨19, _⟩ => ⟨S_, .f32⟩
  | .hbm, ⟨20, _⟩ => ⟨S200000, .f32⟩
  | .hbm, ⟨21, _⟩ => ⟨S1250000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S200000, .f32⟩
  | .hbm, ⟨28, _⟩ => ⟨S200000, .i1⟩
  | .hbm, ⟨29, _⟩ => ⟨S200000, .f32⟩
  | .hbm, ⟨30, _⟩ => ⟨S_, .f32⟩
  | .hbm, ⟨31, _⟩ => ⟨S_, .f32⟩
  | .hbm, ⟨32, _⟩ => ⟨S200000, .f32⟩
  | .hbm, ⟨33, _⟩ => ⟨S200000, .f32⟩
  | .hbm, ⟨34, _⟩ => ⟨S200000, .f32⟩
  | .hbm, ⟨35, _⟩ => ⟨S200000x1, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000, .f32⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000, .f32⟩
  | .hbm, ⟨54, _⟩ => ⟨S1250000, .f32⟩
  | .hbm, ⟨55, _⟩ => ⟨S1250000x1, .f32⟩
  | .hbm, ⟨56, _⟩ => ⟨S200000x64, .f32⟩
  | .hbm, ⟨57, _⟩ => ⟨S_, .i32⟩
  | .hbm, ⟨58, _⟩ => ⟨S1250000, .i32⟩
  | .hbm, ⟨59, _⟩ => ⟨S1250000, .i1⟩
  | .hbm, ⟨60, _⟩ => ⟨S_, .i32⟩
  | .hbm, ⟨61, _⟩ => ⟨S1250000, .i32⟩
  | .hbm, ⟨62, _⟩ => ⟨S1250000, .i32⟩
  | .hbm, ⟨63, _⟩ => ⟨S1250000, .i32⟩
  | .hbm, ⟨64, _⟩ => ⟨S1250000x1, .i32⟩
  | .hbm, ⟨65, _⟩ => ⟨S1250000x64, .f32⟩
  | .hbm, ⟨66, _⟩ => ⟨S1250000x64, .f32⟩
  | .hbm, ⟨67, _⟩ => ⟨S1250000x64, .f32⟩
  | .hbm, ⟨68, _⟩ => ⟨S_, .f32⟩
  | .hbm, ⟨69, _⟩ => ⟨S200000x64, .f32⟩
  | .hbm, ⟨70, _⟩ => ⟨S1250000x1, .i32⟩
  | .hbm, ⟨71, _⟩ => ⟨S200000x64, .f32⟩
  | .hbm, ⟨72, _⟩ => ⟨S1x64, .f32⟩
  | .hbm, ⟨73, _⟩ => ⟨S200000x64, .f32⟩
  | .hbm, ⟨74, _⟩ => ⟨S200000x64, .f32⟩
  | .hbm, ⟨75, _⟩ => ⟨S_, .i32⟩
  | .hbm, ⟨76, _⟩ => ⟨S1250000, .i32⟩
  | .hbm, ⟨77, _⟩ => ⟨S1250000, .i1⟩
  | .hbm, ⟨78, _⟩ => ⟨S_, .i32⟩
  | .hbm, ⟨79, _⟩ => ⟨S1250000, .i32⟩
  | .hbm, ⟨80, _⟩ => ⟨S1250000, .i32⟩
  | .hbm, ⟨81, _⟩ => ⟨S1250000, .i32⟩
  | .hbm, ⟨82, _⟩ => ⟨S1250000x1, .i32⟩
  | .hbm, ⟨83, _⟩ => ⟨S1250000x64, .f32⟩
  | .hbm, ⟨84, _⟩ => ⟨S1250000x64, .f32⟩
  | .hbm, ⟨85, _⟩ => ⟨S1250000x64, .f32⟩
  | .hbm, ⟨86, _⟩ => ⟨S_, .f32⟩
  | .hbm, ⟨87, _⟩ => ⟨S200000x64, .f32⟩
  | .hbm, ⟨88, _⟩ => ⟨S1250000x1, .i32⟩
  | .hbm, ⟨89, _⟩ => ⟨S200000x64, .f32⟩
  | .hbm, ⟨90, _⟩ => ⟨S1x64, .f32⟩
  | .hbm, ⟨91, _⟩ => ⟨S200000x64, .f32⟩
  | .hbm, ⟨92, _⟩ => ⟨S200000x32, .f32⟩
  | .hbm, ⟨93, _⟩ => ⟨S_, .i32⟩
  | .hbm, ⟨94, _⟩ => ⟨S1250000, .i32⟩
  | .hbm, ⟨95, _⟩ => ⟨S1250000, .i1⟩
  | .hbm, ⟨96, _⟩ => ⟨S_, .i32⟩
  | .hbm, ⟨97, _⟩ => ⟨S1250000, .i32⟩
  | .hbm, ⟨98, _⟩ => ⟨S1250000, .i32⟩
  | .hbm, ⟨99, _⟩ => ⟨S1250000, .i32⟩
  | .hbm, ⟨100, _⟩ => ⟨S1250000x1, .i32⟩
  | .hbm, ⟨101, _⟩ => ⟨S1250000x32, .f32⟩
  | .hbm, ⟨102, _⟩ => ⟨S1250000x32, .f32⟩
  | .hbm, ⟨103, _⟩ => ⟨S1250000x32, .f32⟩
  | .hbm, ⟨104, _⟩ => ⟨S_, .f32⟩
  | .hbm, ⟨105, _⟩ => ⟨S200000x32, .f32⟩
  | .hbm, ⟨106, _⟩ => ⟨S1250000x1, .i32⟩
  | .hbm, ⟨107, _⟩ => ⟨S200000x32, .f32⟩
  | .hbm, ⟨108, _⟩ => ⟨S1x32, .f32⟩
  | .hbm, ⟨109, _⟩ => ⟨S200000x32, .f32⟩
  | .hbm, ⟨110, _⟩ => ⟨S_, .f32⟩
  | .hbm, ⟨111, _⟩ => ⟨S2048x32, .f32⟩
  | .hbm, ⟨112, _⟩ => ⟨S200000x1, .i32⟩
  | .hbm, ⟨113, _⟩ => ⟨S2048x32, .f32⟩
  | .hbm, ⟨114, _⟩ => ⟨S_, .f32⟩
  | .hbm, ⟨115, _⟩ => ⟨S200000, .f32⟩
  | .hbm, ⟨116, _⟩ => ⟨S_, .f32⟩
  | .hbm, ⟨117, _⟩ => ⟨S2048, .f32⟩
  | .hbm, ⟨118, _⟩ => ⟨S200000x1, .i32⟩
  | .hbm, ⟨119, _⟩ => ⟨S2048, .f32⟩
  | .hbm, ⟨120, _⟩ => ⟨S2048x1, .f32⟩
  | .hbm, ⟨121, _⟩ => ⟨S1x16, .f32⟩
  | .hbm, ⟨122, _⟩ => ⟨S1x1, .f32⟩
  | .hbm, ⟨123, _⟩ => ⟨S2048x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x1, .f32⟩
  | .local _ .vmem, ⟨38, _⟩ => ⟨S10000x1, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S2048x32, .f32⟩
  | .local _ .vmem, ⟨43, _⟩ => ⟨S2048x1, .f32⟩
  | .local _ .vmem, ⟨44, _⟩ => ⟨S32x16, .f32⟩
  | .local _ .vmem, ⟨45, _⟩ => ⟨S1x16, .f32⟩
  | .local _ .vmem, ⟨46, _⟩ => ⟨S16x1, .f32⟩
  | .local _ .vmem, ⟨47, _⟩ => ⟨S1x1, .f32⟩
  | .local _ .vmem, ⟨48, _⟩ => ⟨S2048x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S2048x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S16x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S2048x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  shapeCasts_S200000_S200000x1 : S200000.ShapeCasts S200000x1
  shapeCasts_S1250000_S1250000x1 : S1250000.ShapeCasts S1250000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1250000x1_S1250000x32_0_1 : S1250000x1.BroadcastsInDim S1250000x32 (![0, 1] : Fin 2 → Fin S1250000x32.rank)
  bcast_S_S200000x32 : S_.BroadcastsInDim S200000x32 (![] : Fin 0 → Fin S200000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S10000x32_S10000x32 : S10000x32.ShapeCasts S10000x32
  broadcasts_S10000x1_S10000x32 : S10000x1.Broadcasts S10000x32
  bcast_S_S2048x32 : S_.BroadcastsInDim S2048x32 (![] : Fin 0 → Fin S2048x32.rank)
  bcast_S200000_S200000x1_0 : S200000.BroadcastsInDim S200000x1 (![0] : Fin 1 → Fin S200000x1.rank)
  bcast_S_S2048 : S_.BroadcastsInDim S2048 (![] : Fin 0 → Fin S2048.rank)
  shapeCasts_S2048_S2048x1 : S2048.ShapeCasts S2048x1
  shapeCasts_S16_S1x16 : S16.ShapeCasts S1x16
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  broadcasts_S2048x1_S2048x32 : S2048x1.Broadcasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  dot_S10000x128_S128x64_S10000x64_1_0_0_1_n_n_wf : DotDims.WF S10000x128 S128x64 S10000x64 [1] [0] [0] [1] [] []
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S200000x32_S1250000x1_S1250000x32_1_0_n_n_0_1_132_wf : GatherDims.WF S200000x32 S1250000x1 S1250000x32 [1] [0] [] [0] [] 1 ![1, 32]
  scatter_S200000x32_S1250000x1_S1250000x32_1_0_0_1_wf : ScatterDims.WF S200000x32 S1250000x1 S1250000x32 [1] [0] [0] 1
  scatter_S2048x32_S200000x1_S200000x32_1_0_0_1_wf : ScatterDims.WF S2048x32 S200000x1 S200000x32 [1] [0] [0] 1
  scatter_S2048_S200000x1_S200000_n_0_0_1_wf : ScatterDims.WF S2048 S200000x1 S200000 [] [0] [0] 1
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S200000x64.size a
  hwx0_2 : ∀ i : grid0.Coords, EltTy.bits .f32 = 32 ∨ (Rect.block (s := S200000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S200000x64.size a
  hwx1_1 : ∀ i : grid1.Coords, EltTy.bits .f32 = 32 ∨ (Rect.block (s := S200000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S200000x1.size a
  hwx1_2 : ∀ i : grid1.Coords, EltTy.bits .f32 = 32 ∨ (Rect.block (s := S200000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S200000x64.size a
  hwx1_4 : ∀ i : grid1.Coords, EltTy.bits .f32 = 32 ∨ (Rect.block (s := S200000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S200000x64.size a
  hwx2_2 : ∀ i : grid2.Coords, EltTy.bits .f32 = 32 ∨ (Rect.block (s := S200000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S200000x1.size a
  hwx3_2 : ∀ i : grid3.Coords, EltTy.bits .f32 = 32 ∨ (Rect.block (s := S200000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S200000x64.size a
  hwx3_4 : ∀ i : grid3.Coords, EltTy.bits .f32 = 32 ∨ (Rect.block (s := S200000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S200000x64.size a
  hwx4_0 : ∀ i : grid4.Coords, EltTy.bits .f32 = 32 ∨ (Rect.block (s := S200000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S200000x32.size a
  hwx4_2 : ∀ i : grid4.Coords, EltTy.bits .f32 = 32 ∨ (Rect.block (s := S200000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S200000x32.size a
  hwx5_0 : ∀ i : grid5.Coords, EltTy.bits .f32 = 32 ∨ (Rect.block (s := S200000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S200000x32.size a
  hwx5_1 : ∀ i : grid5.Coords, EltTy.bits .f32 = 32 ∨ (Rect.block (s := S200000x32) S10000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S200000x1.size a
  hwx5_2 : ∀ i : grid5.Coords, EltTy.bits .f32 = 32 ∨ (Rect.block (s := S200000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x32.size a ≤ S200000x32.size a
  hwx5_4 : ∀ i : grid5.Coords, EltTy.bits .f32 = 32 ∨ (Rect.block (s := S200000x32) S10000x32.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x32.size a ≤ S2048x32.size a
  hwx6_0 : ∀ i : grid6.Coords, EltTy.bits .f32 = 32 ∨ (Rect.block (s := S2048x32) S2048x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x1.size a ≤ S2048x1.size a
  hwx6_1 : ∀ i : grid6.Coords, EltTy.bits .f32 = 32 ∨ (Rect.block (s := S2048x1) S2048x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x16.size a ≤ S32x16.size a
  hwx6_2 : ∀ i : grid6.Coords, EltTy.bits .f32 = 32 ∨ (Rect.block (s := S32x16) S32x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x16.size a ≤ S1x16.size a
  hwx6_3 : ∀ i : grid6.Coords, EltTy.bits .f32 = 32 ∨ (Rect.block (s := S1x16) S1x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S16x1.size a ≤ S16x1.size a
  hwx6_4 : ∀ i : grid6.Coords, EltTy.bits .f32 = 32 ∨ (Rect.block (s := S16x1) S16x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S2048x1.size a ≤ S2048x1.size a
  hwx6_6 : ∀ i : grid6.Coords, EltTy.bits .f32 = 32 ∨ (Rect.block (s := S2048x1) S2048x1.size (cc6_transform_6 i) (hinb6_6 i)).WholeWords (EltTy.packing .f32)

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S200000x32_S1250000x1_S1250000x32_1_0_n_n_0_1_132 : GatherDims S200000x32 S1250000x1 S1250000x32 where
  offsetDims := [1]
  collapsedSliceDims := [0]
  operandBatchingDims := []
  startIndicesBatchingDims := []
  startIndexMap := [0]
  indexVectorDim := 1
  sliceSizes := ![1, 32]
  wf := gather_S200000x32_S1250000x1_S1250000x32_1_0_n_n_0_1_132_wf
def scatter_S200000x32_S1250000x1_S1250000x32_1_0_0_1 : ScatterDims S200000x32 S1250000x1 S1250000x32 where
  updateWindowDims := [1]
  insertedWindowDims := [0]
  scatterDimsToOperandDims := [0]
  indexVectorDim := 1
  wf := scatter_S200000x32_S1250000x1_S1250000x32_1_0_0_1_wf
def scatter_S2048x32_S200000x1_S200000x32_1_0_0_1 : ScatterDims S2048x32 S200000x1 S200000x32 where
  updateWindowDims := [1]
  insertedWindowDims := [0]
  scatterDimsToOperandDims := [0]
  indexVectorDim := 1
  wf := scatter_S2048x32_S200000x1_S200000x32_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S10000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S2048x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v84) S2048x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S32x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v85) S1x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S16x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v86) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v87) S2048x1.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S200000x128 : Shape := ⟨2, ![200000, 128]⟩
abbrev S2x1250000 : Shape := ⟨2, ![2, 1250000]⟩
abbrev S200000 : Shape := ⟨1, ![200000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S200000x64 : Shape := ⟨2, ![200000, 64]⟩
abbrev S1250000x64 : Shape := ⟨2, ![1250000, 64]⟩
abbrev S200000x1 : Shape := ⟨2, ![200000, 1]⟩
abbrev S1x64 : Shape := ⟨2, ![1, 64]⟩
abbrev S200000x32 : Shape := ⟨2, ![200000, 32]⟩
abbrev S1250000x32 : Shape := ⟨2, ![1250000, 32]⟩
abbrev S1x32 : Shape := ⟨2, ![1, 32]⟩
abbrev S2048x32 : Shape := ⟨2, ![2048, 32]⟩
abbrev S2048 : Shape := ⟨1, ![2048]⟩
abbrev S2048x1 : Shape := ⟨2, ![2048, 1]⟩
abbrev S2048x16 : Shape := ⟨2, ![2048, 16]⟩
abbrev S1x16 : Shape := ⟨2, ![1, 16]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S200000x128, .f32⟩
  | 1 => ⟨S2x1250000, .i32⟩
  | 2 => ⟨S200000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x16, .f32⟩
  | 10 => ⟨S16, .f32⟩
  | 11 => ⟨S16x1, .f32⟩
  | 12 => ⟨S1, .f32⟩
  | 13 => ⟨S1x1250000, .i32⟩
  | 14 => ⟨S1250000, .i32⟩
  | 15 => ⟨S1x1250000, .i32⟩
  | 16 => ⟨S1250000, .i32⟩
  | 17 => ⟨S_, .f32⟩
  | 18 => ⟨S1250000, .f32⟩
  | 19 => ⟨S_, .f32⟩
  | 20 => ⟨S200000, .f32⟩
  | 21 => ⟨S1250000x1, .i32⟩
  | 22 => ⟨S200000, .f32⟩
  | 23 => ⟨S_, .f32⟩
  | 24 => ⟨S200000, .f32⟩
  | 25 => ⟨S200000, .f32⟩
  | 26 => ⟨S_, .f32⟩
  | 27 => ⟨S200000, .f32⟩
  | 28 => ⟨S200000, .i1⟩
  | 29 => ⟨S200000, .f32⟩
  | 30 => ⟨S_, .f32⟩
  | 31 => ⟨S_, .f32⟩
  | 32 => ⟨S200000, .f32⟩
  | 33 => ⟨S200000, .f32⟩
  | 34 => ⟨S200000x64, .f32⟩
  | 35 => ⟨S_, .i32⟩
  | 36 => ⟨S1250000, .i32⟩
  | 37 => ⟨S1250000, .i1⟩
  | 38 => ⟨S_, .i32⟩
  | 39 => ⟨S1250000, .i32⟩
  | 40 => ⟨S1250000, .i32⟩
  | 41 => ⟨S1250000, .i32⟩
  | 42 => ⟨S1250000x1, .i32⟩
  | 43 => ⟨S1250000, .f32⟩
  | 44 => ⟨S_, .i32⟩
  | 45 => ⟨S1250000, .i32⟩
  | 46 => ⟨S1250000, .i1⟩
  | 47 => ⟨S_, .i32⟩
  | 48 => ⟨S1250000, .i32⟩
  | 49 => ⟨S1250000, .i32⟩
  | 50 => ⟨S1250000, .i32⟩
  | 51 => ⟨S1250000x1, .i32⟩
  | 52 => ⟨S1250000, .f32⟩
  | 53 => ⟨S1250000, .f32⟩
  | 54 => ⟨S_, .i32⟩
  | 55 => ⟨S1250000, .i32⟩
  | 56 => ⟨S1250000, .i1⟩
  | 57 => ⟨S_, .i32⟩
  | 58 => ⟨S1250000, .i32⟩
  | 59 => ⟨S1250000, .i32⟩
  | 60 => ⟨S1250000, .i32⟩
  | 61 => ⟨S1250000x1, .i32⟩
  | 62 => ⟨S1250000x64, .f32⟩
  | 63 => ⟨S1250000x1, .f32⟩
  | 64 => ⟨S1250000x64, .f32⟩
  | 65 => ⟨S1250000x64, .f32⟩
  | 66 => ⟨S_, .f32⟩
  | 67 => ⟨S200000x64, .f32⟩
  | 68 => ⟨S1250000x1, .i32⟩
  | 69 => ⟨S200000x64, .f32⟩
  | 70 => ⟨S200000, .f32⟩
  | 71 => ⟨S200000x1, .f32⟩
  | 72 => ⟨S200000x64, .f32⟩
  | 73 => ⟨S200000x64, .f32⟩
  | 74 => ⟨S200000x64, .f32⟩
  | 75 => ⟨S1x64, .f32⟩
  | 76 => ⟨S200000x64, .f32⟩
  | 77 => ⟨S200000x64, .f32⟩
  | 78 => ⟨S_, .f32⟩
  | 79 => ⟨S200000x64, .f32⟩
  | 80 => ⟨S200000x64, .f32⟩
  | 81 => ⟨S200000x64, .f32⟩
  | 82 => ⟨S_, .i32⟩
  | 83 => ⟨S1250000, .i32⟩
  | 84 => ⟨S1250000, .i1⟩
  | 85 => ⟨S_, .i32⟩
  | 86 => ⟨S1250000, .i32⟩
  | 87 => ⟨S1250000, .i32⟩
  | 88 => ⟨S1250000, .i32⟩
  | 89 => ⟨S1250000x1, .i32⟩
  | 90 => ⟨S1250000, .f32⟩
  | 91 => ⟨S_, .i32⟩
  | 92 => ⟨S1250000, .i32⟩
  | 93 => ⟨S1250000, .i1⟩
  | 94 => ⟨S_, .i32⟩
  | 95 => ⟨S1250000, .i32⟩
  | 96 => ⟨S1250000, .i32⟩
  | 97 => ⟨S1250000, .i32⟩
  | 98 => ⟨S1250000x1, .i32⟩
  | 99 => ⟨S1250000, .f32⟩
  | 100 => ⟨S1250000, .f32⟩
  | 101 => ⟨S_, .i32⟩
  | 102 => ⟨S1250000, .i32⟩
  | 103 => ⟨S1250000, .i1⟩
  | 104 => ⟨S_, .i32⟩
  | 105 => ⟨S1250000, .i32⟩
  | 106 => ⟨S1250000, .i32⟩
  | 107 => ⟨S1250000, .i32⟩
  | 108 => ⟨S1250000x1, .i32⟩
  | 109 => ⟨S1250000x64, .f32⟩
  | 110 => ⟨S1250000x1, .f32⟩
  | 111 => ⟨S1250000x64, .f32⟩
  | 112 => ⟨S1250000x64, .f32⟩
  | 113 => ⟨S_, .f32⟩
  | 114 => ⟨S200000x64, .f32⟩
  | 115 => ⟨S1250000x1, .i32⟩
  | 116 => ⟨S200000x64, .f32⟩
  | 117 => ⟨S200000, .f32⟩
  | 118 => ⟨S200000x1, .f32⟩
  | 119 => ⟨S200000x64, .f32⟩
  | 120 => ⟨S200000x64, .f32⟩
  | 121 => ⟨S200000x64, .f32⟩
  | 122 => ⟨S1x64, .f32⟩
  | 123 => ⟨S200000x64, .f32⟩
  | 124 => ⟨S200000x64, .f32⟩
  | 125 => ⟨S_, .f32⟩
  | 126 => ⟨S200000x64, .f32⟩
  | 127 => ⟨S200000x64, .f32⟩
  | _ => ⟨S200000x128, .f32⟩

abbrev hbmTy0_1 (i : Nat) : BufTy := match i % 128 with
  | 0 => ⟨S200000x32, .f32⟩
  | 1 => ⟨S_, .i32⟩
  | 2 => ⟨S1250000, .i32⟩
  | 3 => ⟨S1250000, .i1⟩
  | 4 => ⟨S_, .i32⟩
  | 5 => ⟨S1250000, .i32⟩
  | 6 => ⟨S1250000, .i32⟩
  | 7 => ⟨S1250000, .i32⟩
  | 8 => ⟨S1250000x1, .i32⟩
  | 9 => ⟨S1250000, .f32⟩
  | 10 => ⟨S_, .i32⟩
  | 11 => ⟨S1250000, .i32⟩
  | 12 => ⟨S1250000, .i1⟩
  | 13 => ⟨S_, .i32⟩
  | 14 => ⟨S1250000, .i32⟩
  | 15 => ⟨S1250000, .i32⟩
  | 16 => ⟨S1250000, .i32⟩
  | 17 => ⟨S1250000x1, .i32⟩
  | 18 => ⟨S1250000, .f32⟩
  | 19 => ⟨S1250000, .f32⟩
  | 20 => ⟨S_, .i32⟩
  | 21 => ⟨S1250000, .i32⟩
  | 22 => ⟨S1250000, .i1⟩
  | 23 => ⟨S_, .i32⟩
  | 24 => ⟨S1250000, .i32⟩
  | 25 => ⟨S1250000, .i32⟩
  | 26 => ⟨S1250000, .i32⟩
  | 27 => ⟨S1250000x1, .i32⟩
  | 28 => ⟨S1250000x32, .f32⟩
  | 29 => ⟨S1250000x1, .f32⟩
  | 30 => ⟨S1250000x32, .f32⟩
  | 31 => ⟨S1250000x32, .f32⟩
  | 32 => ⟨S_, .f32⟩
  | 33 => ⟨S200000x32, .f32⟩
  | 34 => ⟨S1250000x1, .i32⟩
  | 35 => ⟨S200000x32, .f32⟩
  | 36 => ⟨S200000, .f32⟩
  | 37 => ⟨S200000x1, .f32⟩
  | 38 => ⟨S200000x32, .f32⟩
  | 39 => ⟨S200000x32, .f32⟩
  | 40 => ⟨S200000x32, .f32⟩
  | 41 => ⟨S1x32, .f32⟩
  | 42 => ⟨S200000x32, .f32⟩
  | 43 => ⟨S200000x32, .f32⟩
  | 44 => ⟨S_, .f32⟩
  | 45 => ⟨S200000x32, .f32⟩
  | 46 => ⟨S200000x32, .f32⟩
  | 47 => ⟨S_, .f32⟩
  | 48 => ⟨S2048x32, .f32⟩
  | 49 => ⟨S200000x1, .i32⟩
  | 50 => ⟨S2048x32, .f32⟩
  | 51 => ⟨S_, .f32⟩
  | 52 => ⟨S200000, .f32⟩
  | 53 => ⟨S_, .f32⟩
  | 54 => ⟨S2048, .f32⟩
  | 55 => ⟨S200000x1, .i32⟩
  | 56 => ⟨S2048, .f32⟩
  | 57 => ⟨S_, .f32⟩
  | 58 => ⟨S2048, .f32⟩
  | 59 => ⟨S2048, .f32⟩
  | 60 => ⟨S2048x1, .f32⟩
  | 61 => ⟨S2048x32, .f32⟩
  | 62 => ⟨S2048x32, .f32⟩
  | 63 => ⟨S2048x16, .f32⟩
  | 64 => ⟨S1x16, .f32⟩
  | 65 => ⟨S2048x16, .f32⟩
  | 66 => ⟨S2048x16, .f32⟩
  | 67 => ⟨S_, .f32⟩
  | 68 => ⟨S2048x16, .f32⟩
  | 69 => ⟨S2048x16, .f32⟩
  | 70 => ⟨S2048x1, .f32⟩
  | 71 => ⟨S1x1, .f32⟩
  | 72 => ⟨S2048x1, .f32⟩
  | 73 => ⟨S2048x1, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_cst : Ref sig .tc := ⟨.hbm, 78, rfl⟩
abbrev main_call1_v0 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_v90 : Ref sig .tc := ⟨.hbm, 128, rfl⟩
abbrev main_c_17 : Ref sig .tc := ⟨.hbm, 129, rfl⟩
abbrev main_v91 : Ref sig .tc := ⟨.hbm, 130, rfl⟩
abbrev main_v92 : Ref sig .tc := ⟨.hbm, 131, rfl⟩
abbrev main_c_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_19 : Ref sig .tc := ⟨.hbm, 138, rfl⟩
abbrev main_v98 : Ref sig .tc := ⟨.hbm, 139, rfl⟩
abbrev main_v99 : Ref sig .tc := ⟨.hbm, 140, rfl⟩
abbrev main_c_20 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_21 : Ref sig .tc := ⟨.hbm, 148, rfl⟩
abbrev main_v106 : Ref sig .tc := ⟨.hbm, 149, rfl⟩
abbrev main_v107 : Ref sig .tc := ⟨.hbm, 150, rfl⟩
abbrev main_c_22 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_23 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_call3_cst : Ref sig .tc := ⟨.hbm, 172, rfl⟩
abbrev main_call3_v0 : Ref sig .tc := ⟨.hbm, 173, rfl⟩
abbrev main_v127 : Ref sig .tc := ⟨.hbm, 174, rfl⟩
abbrev main_cst_24 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_25 : Ref sig .tc := ⟨.hbm, 179, rfl⟩
abbrev main_v131 : Ref sig .tc := ⟨.hbm, 180, rfl⟩
abbrev main_cst_26 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_27 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_call4_cst : Ref sig .tc := ⟨.hbm, 195, rfl⟩
abbrev main_call4_v0 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1250000x1_S1250000x32_0_1 : S1250000x1.BroadcastsInDim S1250000x32 (![0, 1] : Fin 2 → Fin S1250000x32.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S2048x32 : S_.BroadcastsInDim S2048x32 (![] : Fin 0 → Fin S2048x32.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32_0_1 : S2048x1.BroadcastsInDim S2048x32 (![0, 1] : Fin 2 → Fin S2048x32.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S_S2048x16 : S_.BroadcastsInDim S2048x16 (![] : Fin 0 → Fin S2048x16.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S200000_S1250000x1_S1250000_n_0_0_1_wf : ScatterDims.WF S200000 S1250000x1 S1250000 [] [0] [0] 1
  dot_S200000x128_S128x64_S200000x64_1_0_0_1_n_n_wf : DotDims.WF S200000x128 S128x64 S200000x64 [1] [0] [0] [1] [] []
  gather_S200000_S1250000x1_S1250000_n_0_n_n_0_1_1_wf : GatherDims.WF S200000 S1250000x1 S1250000 [] [0] [] [0] [] 1 ![1]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  dot_S200000x64_S64x64_S200000x64_1_0_0_1_n_n_wf : DotDims.WF S200000x64 S64x64 S200000x64 [1] [0] [0] [1] [] []
  dot_S200000x64_S64x32_S200000x32_1_0_0_1_n_n_wf : DotDims.WF S200000x64 S64x32 S200000x32 [1] [0] [0] [1] [] []
  gather_S200000x32_S1250000x1_S1250000x32_1_0_n_n_0_1_132_wf : GatherDims.WF S200000x32 S1250000x1 S1250000x32 [1] [0] [] [0] [] 1 ![1, 32]
  scatter_S200000x32_S1250000x1_S1250000x32_1_0_0_1_wf : ScatterDims.WF S200000x32 S1250000x1 S1250000x32 [1] [0] [0] 1
  scatter_S2048x32_S200000x1_S200000x32_1_0_0_1_wf : ScatterDims.WF S2048x32 S200000x1 S200000x32 [1] [0] [0] 1
  scatter_S2048_S200000x1_S200000_n_0_0_1_wf : ScatterDims.WF S2048 S200000x1 S200000 [] [0] [0] 1
  dot_S2048x32_S32x16_S2048x16_1_0_0_1_n_n_wf : DotDims.WF S2048x32 S32x16 S2048x16 [1] [0] [0] [1] [] []
  dot_S2048x16_S16x1_S2048x1_1_0_0_1_n_n_wf : DotDims.WF S2048x16 S16x1 S2048x1 [1] [0] [0] [1] [] []

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def gather_S200000x32_S1250000x1_S1250000x32_1_0_n_n_0_1_132 : GatherDims S200000x32 S1250000x1 S1250000x32 where
  offsetDims := [1]
  collapsedSliceDims := [0]
  operandBatchingDims := []
  startIndicesBatchingDims := []
  startIndexMap := [0]
  indexVectorDim := 1
  sliceSizes := ![1, 32]
  wf := gather_S200000x32_S1250000x1_S1250000x32_1_0_n_n_0_1_132_wf
def scatter_S200000x32_S1250000x1_S1250000x32_1_0_0_1 : ScatterDims S200000x32 S1250000x1 S1250000x32 where
  updateWindowDims := [1]
  insertedWindowDims := [0]
  scatterDimsToOperandDims := [0]
  indexVectorDim := 1
  wf := scatter_S200000x32_S1250000x1_S1250000x32_1_0_0_1_wf
def scatter_S2048x32_S200000x1_S200000x32_1_0_0_1 : ScatterDims S2048x32 S200000x1 S200000x32 where
  updateWindowDims := [1]
  insertedWindowDims := [0]
  scatterDimsToOperandDims := [0]
  indexVectorDim := 1
  wf := scatter_S2048x32_S200000x1_S200000x32_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x1_S2048x1_1_0_0_1_n_n : DotDims S2048x16 S16x1 S2048x1 where
  lhsContracting := [1]
  rhsContracting := [0]
  lhsNonContracting := [0]
  rhsNonContracting := [1]
  lhsBatch := []
  rhsBatch := []
  wf := dot_S2048x16_S16x1_S2048x1_1_0_0_1_n_n_wf

class Facts : Prop extends Facts₀ where

variable [Facts]
-- ==== Proof.ResultRun.lean ====
/-
  The idealized kernel's run with its result named. The program is fourteen segments — host stretches and the seven
  kernel regions — and at every boundary the contents of every buffer are known: the launch memory pushed through the
  host operations and each region's write-backs (`Gen.W0` … `Gen.W14`). Every weakly fair execution ends with each
  buffer at the last boundary's contents; read at the result buffer and at the thirteen arguments this gives: the result
  is `Gen.W14` there, and the arguments are as launched.
-/
import proofs.«155246_j18021682774333_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v87) = W14 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v87 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.ResultRun

end
-- ==== Proof.Dense1.lean ====
/-
  The dense transform of graph-convolution layer 1: the node-feature array times the layer's weight matrix,
  computed twenty blocks of 10000 rows at a time. Block `t` of the result holds, at row `p` and column `q`, the sum over the
  128 input channels `k` of (row `t·10000 + p` of the features at `k`) · (weight at `k, q`): a narrowing of the float format is
  the identity on the extended reals and the product accumulates onto zero, so each block is the restriction of ONE
  function of the two whole arrays, `rowsTimes`. The twenty row blocks tile the `200000 × 64` result (row `r` lies in
  block `r / 10000`), so the array the region leaves is `rowsTimes` of the arrays it found.
-/
import proofs.«155246_j18021682774333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense1

open Cert.KernelIdeal Cert.KernelIdeal.Gen Idealize.ShloMosaic Idealize.ShloMosaic.TcCoe Idealize.ShloMosaic.ValueIdx Idealize.SL.Sem
open Idealize.ShloMosaic.Pipeline (Dat)

/-- Rows times a weight matrix: entry `(r, q)` is the sum over the channels `k` of `x[r, k] · w[k, q]`. -/
def rowsTimes (x : FVec Ideal S200000x128 .f32) (w : FVec Ideal S128x64 .f32) : FVec Ideal S200000x64 .f32 :=
  fun i => ∑ k : Fin 128, x (ix2 (i 0) k) * w (ix2 k (i 1))

/-- The block product's left operand index keeps the entry's row. -/
theorem lhs_row (i : S10000x64.Idx) (r : dot_S10000x128_S128x64_S10000x64_1_0_0_1_n_n.contr.Idx) : (dot_S10000x128_S128x64_S10000x64_1_0_0_1_n_n.lhsIdx i r 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and takes the contraction's channel as its column. -/
theorem lhs_chan (i : S10000x64.Idx) (r : dot_S10000x128_S128x64_S10000x64_1_0_0_1_n_n.contr.Idx) : (dot_S10000x128_S128x64_S10000x64_1_0_0_1_n_n.lhsIdx i r 1).val = (r ⟨0, by decide⟩).val :=
  dot_S10000x128_S128x64_S10000x64_1_0_0_1_n_n.lhsIdx_val_of_single rfl i r
/-- The right operand index takes the channel as its row … -/
theorem rhs_chan (i : S10000x64.Idx) (r : dot_S10000x128_S128x64_S10000x64_1_0_0_1_n_n.contr.Idx) : (dot_S10000x128_S128x64_S10000x64_1_0_0_1_n_n.rhsIdx i r 0).val = (r ⟨0, by decide⟩).val :=
  dot_S10000x128_S128x64_S10000x64_1_0_0_1_n_n.rhsIdx_val_of_single rfl i r
/-- … and keeps the entry's column. -/
theorem rhs_col (i : S10000x64.Idx) (r : dot_S10000x128_S128x64_S10000x64_1_0_0_1_n_n.contr.Idx) : (dot_S10000x128_S128x64_S10000x64_1_0_0_1_n_n.rhsIdx i r 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- One block's product read at an entry: the contraction over the one shared axis, re-indexed by the channel. -/
theorem block_apply (X : Vec Ideal S10000x128 .f32) (W : Vec Ideal S128x64 .f32) (p : Fin 10000) (q : Fin 64) :
    k0_pay1 (F := Ideal) X W (ix2 p q) = ∑ k : Fin 128, X (ix2 p k) * W (ix2 k q) := by
  unfold k0_pay1
  simp only [shapeCast_self, matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_chan _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_chan _ _).trans hk
    | ⟨1, _⟩ => exact rhs_col _ _)
  show (truncf .bf16 X bitsLt_bf16_f32 : FVec Ideal S10000x128 .bf16) _ * (truncf .bf16 W bitsLt_bf16_f32 : FVec Ideal S128x64 .bf16) _ = _
  rw [el, er]
  rfl

theorem zero_off : (![0, 0] : Fin 2 → Nat) = fun _ => 0 := funext fun a => by fin_cases a <;> rfl

/-- The printed block maps, decided over the twenty grid points: the feature block and the result block move together
    along the rows, at block index at most 19; the weight block and every column block index are 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every one of the twenty row blocks is some grid point's. -/
theorem index_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What grid point `t` writes back is block `t` of `rowsTimes` of the two arrays as the region finds them. -/
theorem flushed_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := index_facts t
  funext j
  obtain ⟨p, q, rfl⟩ : ∃ (p : Fin 10000) (q : Fin 64), j = ix2 p q := ⟨j 0, j 1, eq_ix2 j⟩
  refine (block_apply (iblk0 V c 0 t) (iblk0 V c 1 t) p q).trans ?_
  show _ = rowsTimes (V c main_arg0) (V c main_arg3) (((cfg0.win 2).blk t).view.emb (ix2 p q))
  unfold rowsTimes
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  have h1 : iblk0 V c 0 t (ix2 p k) = V c main_arg0 (ix2 ((((cfg0.win 2).blk t).view.emb (ix2 p q)) 0) k) := congrArg (V c main_arg0) hx
  have h2 : iblk0 V c 1 t (ix2 k q) = V c main_arg3 (ix2 k ((((cfg0.win 2).blk t).view.emb (ix2 p q)) 1)) := congrArg (V c main_arg3) hw
  rw [h1, h2]

/-- An entry of the result lies in point `t`'s block iff each coordinate lies in the block's range on its axis. -/
theorem mem_block (t : Fin cfg0.N) (i : S200000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every entry of the result is written: row `r` by the point whose block index is `r / 10000`. -/
theorem covered (i : S200000x64.Idx) :
    ∃ t : Fin cfg0.N, (cfg0.win 2).flush t = true ∧ i ∈ ((cfg0.win 2).blk t).view.set := by
  have hi0 : (i 0).val < 200000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the region leaves: `rowsTimes` of the feature array and the weight matrix it found. -/
theorem final (c : Dev nD) :
    (dat0 V c).arrAt 2 cfg0.N = rowsTimes (V c main_arg0) (V c main_arg3) :=
  (dat0 V c).arrAt_eq_of_cover 2 (rowsTimes (V c main_arg0) (V c main_arg3)) (fun t _ => flushed_eq V c t) (covered)

end Cert.KernelIdeal.Dense1

end
-- ==== Proof.Dense2.lean ====
/-
  The dense transform of graph-convolution layer 2: the node-feature array times the layer's weight matrix,
  computed twenty blocks of 10000 rows at a time. Block `t` of the result holds, at row `p` and column `q`, the sum over the
  64 input channels `k` of (row `t·10000 + p` of the features at `k`) · (weight at `k, q`): a narrowing of the float format is
  the identity on the extended reals and the product accumulates onto zero, so each block is the restriction of ONE
  function of the two whole arrays, `rowsTimes`. The twenty row blocks tile the `200000 × 64` result (row `r` lies in
  block `r / 10000`), so the array the region leaves is `rowsTimes` of the arrays it found.
-/
import proofs.«155246_j18021682774333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense2

open Cert.KernelIdeal Cert.KernelIdeal.Gen Idealize.ShloMosaic Idealize.ShloMosaic.TcCoe Idealize.ShloMosaic.ValueIdx Idealize.SL.Sem
open Idealize.ShloMosaic.Pipeline (Dat)

/-- Rows times a weight matrix: entry `(r, q)` is the sum over the channels `k` of `x[r, k] · w[k, q]`. -/
def rowsTimes (x : FVec Ideal S200000x64 .f32) (w : FVec Ideal S64x64 .f32) : FVec Ideal S200000x64 .f32 :=
  fun i => ∑ k : Fin 64, x (ix2 (i 0) k) * w (ix2 k (i 1))

/-- The block product's left operand index keeps the entry's row. -/
theorem lhs_row (i : S10000x64.Idx) (r : dot_S10000x64_S64x64_S10000x64_1_0_0_1_n_n.contr.Idx) : (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and takes the contraction's channel as its column. -/
theorem lhs_chan (i : S10000x64.Idx) (r : dot_S10000x64_S64x64_S10000x64_1_0_0_1_n_n.contr.Idx) : (dot_S10000x64_S64x64_S10000x64_1_0_0_1_n_n.lhsIdx i r 1).val = (r ⟨0, by decide⟩).val :=
  dot_S10000x64_S64x64_S10000x64_1_0_0_1_n_n.lhsIdx_val_of_single rfl i r
/-- The right operand index takes the channel as its row … -/
theorem rhs_chan (i : S10000x64.Idx) (r : dot_S10000x64_S64x64_S10000x64_1_0_0_1_n_n.contr.Idx) : (dot_S10000x64_S64x64_S10000x64_1_0_0_1_n_n.rhsIdx i r 0).val = (r ⟨0, by decide⟩).val :=
  dot_S10000x64_S64x64_S10000x64_1_0_0_1_n_n.rhsIdx_val_of_single rfl i r
/-- … and keeps the entry's column. -/
theorem rhs_col (i : S10000x64.Idx) (r : dot_S10000x64_S64x64_S10000x64_1_0_0_1_n_n.contr.Idx) : (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- One block's product read at an entry: the contraction over the one shared axis, re-indexed by the channel. -/
theorem block_apply (X : Vec Ideal S10000x64 .f32) (W : Vec Ideal S64x64 .f32) (p : Fin 10000) (q : Fin 64) :
    k2_pay1 (F := Ideal) X W (ix2 p q) = ∑ k : Fin 64, X (ix2 p k) * W (ix2 k q) := by
  unfold k2_pay1
  simp only [shapeCast_self, matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_chan _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_chan _ _).trans hk
    | ⟨1, _⟩ => exact rhs_col _ _)
  show (truncf .bf16 X bitsLt_bf16_f32 : FVec Ideal S10000x64 .bf16) _ * (truncf .bf16 W bitsLt_bf16_f32 : FVec Ideal S64x64 .bf16) _ = _
  rw [el, er]
  rfl

theorem zero_off : (![0, 0] : Fin 2 → Nat) = fun _ => 0 := funext fun a => by fin_cases a <;> rfl

/-- The printed block maps, decided over the twenty grid points: the feature block and the result block move together
    along the rows, at block index at most 19; the weight block and every column block index are 0. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every one of the twenty row blocks is some grid point's. -/
theorem index_onto : ∀ q0 : Fin 20, ∃ t : Fin cfg2.N, win2_2.index t = ![q0.val, 0] :=
  (by decide +kernel : ∀ q0 : Fin 20, ∃ t : Fin grid2.N, win2_2.index t = ![q0.val, 0])

variable (V : (c : Dev nD) → (b : Ref sig .tc) → Buf (Elt Ideal) ((c : Thread nD τ).loc b))

/-- What grid point `t` writes back is block `t` of `rowsTimes` of the two arrays as the region finds them. -/
theorem flushed_eq (c : Dev nD) (t : Fin cfg2.N) :
    (dat2 V c).flushed 2 t = ((cfg2.win 2).blk t).view.read (Elt Ideal) (rowsTimes (V c main_v46) (V c main_arg5)) := by
  show (cfg2.win 2).cut (grid2.coords t) ((dat2 V c).after 2 t) = _
  rw [after2_2]
  unfold out2_2
  rw [View.canon_unit_zero zero_off]
  simp only [View.ld_unit_zero (S := S10000x64) zero_off, View.ld_unit_zero (S := S64x64) zero_off]
  obtain ⟨e0, e1, e2, e3, e4, e5⟩ := index_facts t
  funext j
  obtain ⟨p, q, rfl⟩ : ∃ (p : Fin 10000) (q : Fin 64), j = ix2 p q := ⟨j 0, j 1, eq_ix2 j⟩
  refine (block_apply (iblk2 V c 0 t) (iblk2 V c 1 t) p q).trans ?_
  show _ = rowsTimes (V c main_v46) (V c main_arg5) (((cfg2.win 2).blk t).view.emb (ix2 p q))
  unfold rowsTimes
  refine Finset.sum_congr rfl fun k _ => ?_
  have hx : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hw : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  have h1 : iblk2 V c 0 t (ix2 p k) = V c main_v46 (ix2 ((((cfg2.win 2).blk t).view.emb (ix2 p q)) 0) k) := congrArg (V c main_v46) hx
  have h2 : iblk2 V c 1 t (ix2 k q) = V c main_arg5 (ix2 k ((((cfg2.win 2).blk t).view.emb (ix2 p q)) 1)) := congrArg (V c main_arg5) hw
  rw [h1, h2]

/-- An entry of the result lies in point `t`'s block iff each coordinate lies in the block's range on its axis. -/
theorem mem_block (t : Fin cfg2.N) (i : S200000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Every entry of the result is written: row `r` by the point whose block index is `r / 10000`. -/
theorem covered (i : S200000x64.Idx) :
    ∃ t : Fin cfg2.N, (cfg2.win 2).flush t = true ∧ i ∈ ((cfg2.win 2).blk t).view.set := by
  have hi0 : (i 0).val < 200000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the region leaves: `rowsTimes` of the feature array and the weight matrix it found. -/
theorem final (c : Dev nD) :
    (dat2 V c).arrAt 2 cfg2.N = rowsTimes (V c main_v46) (V c main_arg5) :=
  (dat2 V c).arrAt_eq_of_cover 2 (rowsTimes (V c main_v46) (V c main_arg5)) (fun t _ => flushed_eq V c t) (covered)

end Cert.KernelIdeal.Dense2

end
-- ==== Proof.Dense3.lean ====
/-
  The dense transform of graph-convolution layer 3: the node-feature array times the layer's weight matrix,
  computed twenty blocks of 10000 rows at a time. Block `t` of the result holds, at row `p` and column `q`, the sum over the
  64 input channels `k` of (row `t·10000 + p` of the features at `k`) · (weight at `k, q`): a narrowing of the float format is
  the identity on the extended reals and the product accumulates onto zero, so each block is the restriction of ONE
  function of the two whole arrays, `rowsTimes`. The twenty row blocks tile the `200000 × 32` result (row `r` lies in
  block `r / 10000`), so the array the region leaves is `rowsTimes` of the arrays it found.
-/
import proofs.«155246_j18021682774333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense3

open Cert.KernelIdeal Cert.KernelIdeal.Gen Idealize.ShloMosaic Idealize.ShloMosaic.TcCoe Idealize.ShloMosaic.ValueIdx Idealize.SL.Sem
open Idealize.ShloMosaic.Pipeline (Dat)

/-- Rows times a weight matrix: entry `(r, q)` is the sum over the channels `k` of `x[r, k] · w[k, q]`. -/
def rowsTimes (x : FVec Ideal S200000x64 .f32) (w : FVec Ideal S64x32 .f32) : FVec Ideal S200000x32 .f32 :=
  fun i => ∑ k : Fin 64, x (ix2 (i 0) k) * w (ix2 k (i 1))

/-- The block product's left operand index keeps the entry's row. -/
theorem lhs_row (i : S10000x32.Idx) (r : dot_S10000x64_S64x32_S10000x32_1_0_0_1_n_n.contr.Idx) : (dot_S10000x64_S64x32_S10000x32_1_0_0_1_n_n.lhsIdx i r 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- … and takes the contraction's channel as its column. -/
theorem lhs_chan (i : S10000x32.Idx) (r : dot_S10000x64_S64x32_S10000x32_1_0_0_1_n_n.contr.Idx) : (dot_S10000x64_S64x32_S10000x32_1_0_0_1_n_n.lhsIdx i r 1).val = (r ⟨0, by decide⟩).val :=
  dot_S10000x64_S64x32_S10000x32_1_0_0_1_n_n.lhsIdx_val_of_single rfl i r
/-- The right operand index takes the channel as its row … -/
theorem rhs_chan (i : S10000x32.Idx) (r : dot_S10000x64_S64x32_S10000x32_1_0_0_1_n_n.contr.Idx) : (dot_S10000x64_S64x32_S10000x32_1_0_0_1_n_n.rhsIdx i r 0).val = (r ⟨0, by decide⟩).val :=
  dot_S10000x64_S64x32_S10000x32_1_0_0_1_n_n.rhsIdx_val_of_single rfl i r
/-- … and keeps the entry's column. -/
theorem rhs_col (i : S10000x32.Idx) (r : dot_S10000x64_S64x32_S10000x32_1_0_0_1_n_n.contr.Idx) : (dot_S10000x64_S64x32_S10000x32_1_0_0_1_n_n.rhsIdx i r 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- One block's product read at an entry: the contraction over the one shared axis, re-indexed by the channel. -/
theorem block_apply (X : Vec Ideal S10000x64 .f32) (W : Vec Ideal S64x32 .f32) (p : Fin 10000) (q : Fin 32) :
    k4_pay1 (F := Ideal) X W (ix2 p q) = ∑ k : Fin 64, X (ix2 p k) * W (ix2 k q) := by
  unfold k4_pay1
  simp only [shapeCast_self, matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_chan _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs_chan _ _).trans hk
    | ⟨1, _⟩ => exact rhs_col _ _)
  show (truncf .bf16 X bitsLt_bf16_f32 : FVec Ideal S10000x64 .bf16) _ * (truncf .bf16 W bitsLt_bf16_f32 : FVec Ideal S64x32 .bf16) _ = _
  rw [el, er]
  rfl

theorem zero_off : (![0, 0] : Fin 2 → Nat) = fun _ => 0 := funext fun a => by fin_cases a <;> rfl

/-- The printed block maps, decided over the twenty grid points: the feature block and the result block move together
    along the rows, at block index at most 19; the weight block and every column block index are 0. -/
theorem index_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 19
    ∧ win4_2.index t (1 : Fin 2) = 0 :=
  (by decide +kernel : ∀ t : Fin grid4.N, _)

/-- Every one of the twenty row blocks is some grid point's. -/
theorem index_onto : ∀ q0 : Fin 20, ∃ t : Fin cfg4.N, win4_2.index t = ![q0.val, 0] :=
  (by decide +kernel : ∀ q0 : Fin 20, ∃ t : Fin grid4.N, win4_2.index t = ![q0.val, 0])

variable (V : (c : Dev nD) → (b : Ref sig .tc) → Buf (Elt Ideal) ((c : Thread nD τ).loc b))

/-- What grid point `t` writes back is block `t` of `rowsTimes` of the two arrays as the region finds them. -/
theorem flushed_eq (c : Dev nD) (t : Fin cfg4.N) :
    (dat4 V c).flushed 2 t = ((cfg4.win 2).blk t).view.read (Elt Ideal) (rowsTimes (V c main_v61) (V c main_arg7)) := by
  show (cfg4.win 2).cut (grid4.coords t) ((dat4 V c).after 2 t) = _
  rw [after4_2]
  unfold out4_2
  rw [View.canon_unit_zero zero_off]
  simp only [View.ld_unit_zero (S := S10000x64) zero_off, View.ld_unit_zero (S := S64x32) zero_off]
  obtain ⟨e0, e1, e2, e3, e4, e5⟩ := index_facts t
  funext j
  obtain ⟨p, q, rfl⟩ : ∃ (p : Fin 10000) (q : Fin 32), j = ix2 p q := ⟨j 0, j 1, eq_ix2 j⟩
  refine (block_apply (iblk4 V c 0 t) (iblk4 V c 1 t) p q).trans ?_
  show _ = rowsTimes (V c main_v61) (V c main_arg7) (((cfg4.win 2).blk t).view.emb (ix2 p q))
  unfold rowsTimes
  refine Finset.sum_congr rfl fun k _ => ?_
  have hx : ((cfg4.win 0).blk t).view.emb (ix2 p k) = ix2 ((((cfg4.win 2).blk t).view.emb (ix2 p q)) 0) k := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * k.val = k.val; omega
  have hw : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 32 + 1 * q.val = win4_2.index t (1 : Fin 2) * 32 + 1 * q.val; omega
  have h1 : iblk4 V c 0 t (ix2 p k) = V c main_v61 (ix2 ((((cfg4.win 2).blk t).view.emb (ix2 p q)) 0) k) := congrArg (V c main_v61) hx
  have h2 : iblk4 V c 1 t (ix2 k q) = V c main_arg7 (ix2 k ((((cfg4.win 2).blk t).view.emb (ix2 p q)) 1)) := congrArg (V c main_arg7) hw
  rw [h1, h2]

/-- An entry of the result lies in point `t`'s block iff each coordinate lies in the block's range on its axis. -/
theorem mem_block (t : Fin cfg4.N) (i : S200000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v62).slice (win4_2.rect t)).set ↔ _
  rw [View.set_slice_whole, Rect.mem_set_unit]
  exact Iff.rfl

/-- Every entry of the result is written: row `r` by the point whose block index is `r / 10000`. -/
theorem covered (i : S200000x32.Idx) :
    ∃ t : Fin cfg4.N, (cfg4.win 2).flush t = true ∧ i ∈ ((cfg4.win 2).blk t).view.set := by
  have hi0 : (i 0).val < 200000 := (i 0).isLt
  have hi1 : (i 1).val < 32 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- The array the region leaves: `rowsTimes` of the feature array and the weight matrix it found. -/
theorem final (c : Dev nD) :
    (dat4 V c).arrAt 2 cfg4.N = rowsTimes (V c main_v61) (V c main_arg7) :=
  (dat4 V c).arrAt_eq_of_cover 2 (rowsTimes (V c main_v61) (V c main_arg7)) (fun t _ => flushed_eq V c t) (covered)

end Cert.KernelIdeal.Dense3

end
-- ==== Proof.Combine1.lean ====
/-
  The combine step of graph-convolution layer 1: from the aggregated neighbour messages `agg`, the layer's dense
  transform `h`, the squared inverse-root degree `d` (one column) and the bias `b` (one row), entry `(r, q)` of the result is
  `max ((agg[r, q] + d[r, 0] · h[r, q]) + b[0, q]) 0`. The kernel computes it twenty blocks of 10000 rows at a time; the
  degree column moves with the row block, the bias row is the same at every point, and a cast between equal shapes is the
  identity, so each block is the restriction of ONE function of the four whole arrays, `combine`. The twenty row blocks
  tile the `200000 × 64` result (row `r` lies in block `r / 10000`).
-/
import proofs.«155246_j18021682774333_1_alg».proof.Proof.Gen.KernelIdeal.Frame
import Idealize.ShloMosaic.Lib.Pipeline.Value
import Idealize.ShloMosaic.Lib.ValueIdx

set_option maxRecDepth 16384

noncomputable section

namespace Cert.KernelIdeal.Combine1

open Cert.KernelIdeal Cert.KernelIdeal.Gen Idealize.ShloMosaic Idealize.ShloMosaic.TcCoe Idealize.ShloMosaic.ValueIdx Idealize.SL.Sem
open Idealize.ShloMosaic.Pipeline (Dat)

/-- Messages plus the degree-scaled self term plus the bias, clipped below at zero. -/
def combine (agg h : FVec Ideal S200000x64 .f32) (d : FVec Ideal S200000x1 .f32) (b : FVec Ideal S1x64 .f32) : FVec Ideal S200000x64 .f32 :=
  fun i => FloatOps.maximumf (FloatOps.addf (FloatOps.addf (agg i) (FloatOps.mulf (d (ix2 (i 0) (0 : Fin 1))) (h i))) (b (ix2 (0 : Fin 1) (i 1)))) (Scalar.ofBits .f32 0x00000000#32)

/-- The degree column broadcast along the channels reads, at entry `(p, q)`, the column's entry `p`. -/
theorem column_at {α : Type} (d : S10000x1.Idx → α) (p : Fin 10000) (q : Fin 64) :
    broadcastTo S10000x64 d broadcasts_S10000x1_S10000x64 (ix2 p q) = d (ix2 p (0 : Fin 1)) :=
  broadcastTo_apply d broadcasts_S10000x1_S10000x64 (ix2 p q) (ix2 p (0 : Fin 1)) (fun a => by match a with | ⟨0, _⟩ => rfl | ⟨1, _⟩ => rfl)

/-- The bias row broadcast along the rows reads, at entry `(p, q)`, the row's entry `q`. -/
theorem row_at {α : Type} (b : S1x64.Idx → α) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => by match a with | ⟨0, _⟩ => rfl | ⟨1, _⟩ => rfl)

/-- One block's result read at an entry: the degree at the entry's row, the bias at the entry's column. -/
theorem block_apply (b : Vec Ideal S1x64 .f32) (a : Vec Ideal S10000x64 .f32) (d : Vec Ideal S10000x1 .f32) (h : Vec Ideal S10000x64 .f32)
    (p : Fin 10000) (q : Fin 64) :
    k1_pay1 (F := Ideal) b a d h (ix2 p q)
      = FloatOps.maximumf (FloatOps.addf (FloatOps.addf (a (ix2 p q)) (FloatOps.mulf (d (ix2 p (0 : Fin 1))) (h (ix2 p q)))) (b (ix2 (0 : Fin 1) q))) (Scalar.ofBits .f32 0x00000000#32) := by
  unfold k1_pay1
  simp only [shapeCast_self]
  exact congrArg₂ (fun (u v : Ideal .f32) => FloatOps.maximumf (FloatOps.addf (FloatOps.addf (a (ix2 p q)) (FloatOps.mulf u (h (ix2 p q)))) v) (Scalar.ofBits .f32 0x00000000#32))
    (column_at d p q) (row_at b p q)

theorem zero_off : (![0, 0] : Fin 2 → Nat) = fun _ => 0 := funext fun a => by fin_cases a <;> rfl

/-- The printed block maps, decided over the twenty grid points: messages, transform, degree column and result move
    together along the rows, at block index at most 19; the bias block and every column block index are 0. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) ≤ 19
    ∧ win1_4.index t (1 : Fin 2) = 0 :=
  (by decide +kernel : ∀ t : Fin grid1.N, _)

/-- Every one of the twenty row blocks is some grid point's. -/
theorem index_onto : ∀ q0 : Fin 20, ∃ t : Fin cfg1.N, win1_4.index t = ![q0.val, 0] :=
  (by decide +kernel : ∀ q0 : Fin 20, ∃ t : Fin grid1.N, win1_4.index t = ![q0.val, 0])

variable (V : (c : Dev nD) → (b : Ref sig .tc) → Buf (Elt Ideal) ((c : Thread nD τ).loc b))

set_option maxHeartbeats 1600000 in
/-- What grid point `t` writes back is block `t` of `combine` of the four arrays as the region finds them. -/
theorem flushed_eq (c : Dev nD) (t : Fin cfg1.N) :
    (dat1 V c).flushed 4 t = ((cfg1.win 4).blk t).view.read (Elt Ideal) (combine (V c main_v44) (V c main_v32) (V c main_v15) (V c main_v45)) := by
  show (cfg1.win 4).cut (grid1.coords t) ((dat1 V c).after 4 t) = _
  rw [after1_4]
  unfold out1_4
  rw [View.canon_unit_zero zero_off]
  simp only [View.ld_unit_zero (S := S10000x64) zero_off, View.ld_unit_zero (S := S10000x1) zero_off, View.ld_unit_zero (S := S1x64) zero_off]
  obtain ⟨e0, e1, e2, e3, e4, e5, e6, e7, e8, e9⟩ := index_facts t
  funext j
  obtain ⟨p, q, rfl⟩ : ∃ (p : Fin 10000) (q : Fin 64), j = ix2 p q := ⟨j 0, j 1, eq_ix2 j⟩
  refine (block_apply (iblk1 V c 3 t) (iblk1 V c 0 t) (iblk1 V c 2 t) (iblk1 V c 1 t) p q).trans ?_
  have h0 : ((cfg1.win 0).blk t).view.emb (ix2 p q) = ((cfg1.win 4).blk t).view.emb (ix2 p q) := by
    funext a; apply Fin.ext
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 10000 + 1 * p.val = win1_4.index t (0 : Fin 2) * 10000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 10000 + 1 * p.val = win1_4.index t (0 : Fin 2) * 10000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  have g0 : iblk1 V c 0 t (ix2 p q) = V c main_v44 (((cfg1.win 4).blk t).view.emb (ix2 p q)) := congrArg (V c main_v44) h0
  have g1 : iblk1 V c 1 t (ix2 p q) = V c main_v32 (((cfg1.win 4).blk t).view.emb (ix2 p q)) := congrArg (V c main_v32) h1
  have g2 : iblk1 V c 2 t (ix2 p (0 : Fin 1)) = V c main_v15 (ix2 ((((cfg1.win 4).blk t).view.emb (ix2 p q)) 0) (0 : Fin 1)) := congrArg (V c main_v15) h2
  have g3 : iblk1 V c 3 t (ix2 (0 : Fin 1) q) = V c main_v45 (ix2 (0 : Fin 1) ((((cfg1.win 4).blk t).view.emb (ix2 p q)) 1)) := congrArg (V c main_v45) h3
  rw [g0, g1, g2, g3]
  rfl

/-- An entry of the result lies in point `t`'s block iff each coordinate lies in the block's range on its axis. -/
theorem mem_block (t : Fin cfg1.N) (i : S200000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v46).slice (win1_4.rect t)).set ↔ _
  rw [View.set_slice_whole, Rect.mem_set_unit]
  exact Iff.rfl

/-- Every entry of the result is written: row `r` by the point whose block index is `r / 10000`. -/
theorem covered (i : S200000x64.Idx) :
    ∃ t : Fin cfg1.N, (cfg1.win 4).flush t = true ∧ i ∈ ((cfg1.win 4).blk t).view.set := by
  have hi0 : (i 0).val < 200000 := (i 0).isLt
  have hi1 : (i 1).val < 64 := (i 1).isLt
  obtain ⟨t, ht⟩ := index_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The array the region leaves: `combine` of the four arrays it found. -/
theorem final (c : Dev nD) :
    (dat1 V c).arrAt 4 cfg1.N = combine (V c main_v44) (V c main_v32) (V c main_v15) (V c main_v45) :=
  (dat1 V c).arrAt_eq_of_cover 4 (combine (V c main_v44) (V c main_v32) (V c main_v15) (V c main_v45)) (fun t _ => flushed_eq V c t) (covered)

end Cert.KernelIdeal.Combine1

end
-- ==== Proof.Combine2.lean ====
/-
  The combine step of graph-convolution layer 2: from the aggregated neighbour messages `agg`, the layer's dense
  transform `h`, the squared inverse-root degree `d` (one column) and the bias `b` (one row), entry `(r, q)` of the result is
  `max ((agg[r, q] + d[r, 0] · h[r, q]) + b[0, q]) 0`. The kernel computes it twenty blocks of 10000 rows at a time; the
  degree column moves with the row block, the bias row is the same at every point, and a cast between equal shapes is the
  identity, so each block is the restriction of ONE function of the four whole arrays, `combine`. The twenty row blocks
  tile the `200000 × 64` result (row `r` lies in block `r / 10000`).
-/
import proofs.«155246_j18021682774333_1_alg».proof.Proof.Gen.KernelIdeal.Frame
import Idealize.ShloMosaic.Lib.Pipeline.Value
import Idealize.ShloMosaic.Lib.ValueIdx

set_option maxRecDepth 16384

noncomputable section

namespace Cert.KernelIdeal.Combine2

open Cert.KernelIdeal Cert.KernelIdeal.Gen Idealize.ShloMosaic Idealize.ShloMosaic.TcCoe Idealize.ShloMosaic.ValueIdx Idealize.SL.Sem
open Idealize.ShloMosaic.Pipeline (Dat)

/-- Messages plus the degree-scaled self term plus the bias, clipped below at zero. -/
def combine (agg h : FVec Ideal S200000x64 .f32) (d : FVec Ideal S200000x1 .f32) (b : FVec Ideal S1x64 .f32) : FVec Ideal S200000x64 .f32 :=
  fun i => FloatOps.maximumf (FloatOps.addf (FloatOps.addf (agg i) (FloatOps.mulf (d (ix2 (i 0) (0 : Fin 1))) (h i))) (b (ix2 (0 : Fin 1) (i 1)))) (Scalar.ofBits .f32 0x00000000#32)

/-- The degree column broadcast along the channels reads, at entry `(p, q)`, the column's entry `p`. -/
theorem column_at {α : Type} (d : S10000x1.Idx → α) (p : Fin 10000) (q : Fin 64) :
    broadcastTo S10000x64 d broadcasts_S10000x1_S10000x64 (ix2 p q) = d (ix2 p (0 : Fin 1)) :=
  broadcastTo_apply d broadcasts_S10000x1_S10000x64 (ix2 p q) (ix2 p (0 : Fin 1)) (fun a => by match a with | ⟨0, _⟩ => rfl | ⟨1, _⟩ => rfl)

/-- The bias row broadcast along the rows reads, at entry `(p, q)`, the row's entry `q`. -/
theorem row_at {α : Type} (b : S1x64.Idx → α) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => by match a with | ⟨0, _⟩ => rfl | ⟨1, _⟩ => rfl)

/-- One block's result read at an entry: the degree at the entry's row, the bias at the entry's column. -/
theorem block_apply (b : Vec Ideal S1x64 .f32) (a : Vec Ideal S10000x64 .f32) (d : Vec Ideal S10000x1 .f32) (h : Vec Ideal S10000x64 .f32)
    (p : Fin 10000) (q : Fin 64) :
    k3_pay1 (F := Ideal) b a d h (ix2 p q)
      = FloatOps.maximumf (FloatOps.addf (FloatOps.addf (a (ix2 p q)) (FloatOps.mulf (d (ix2 p (0 : Fin 1))) (h (ix2 p q)))) (b (ix2 (0 : Fin 1) q))) (Scalar.ofBits .f32 0x00000000#32) := by
  unfold k3_pay1
  simp only [shapeCast_self]
  exact congrArg₂ (fun (u v : Ideal .f32) => FloatOps.maximumf (FloatOps.addf (FloatOps.addf (a (ix2 p q)) (FloatOps.mulf u (h (ix2 p q)))) v) (Scalar.ofBits .f32 0x00000000#32))
    (column_at d p q) (row_at b p q)

theorem zero_off : (![0, 0] : Fin 2 → Nat) = fun _ => 0 := funext fun a => by fin_cases a <;> rfl

/-- The printed block maps, decided over the twenty grid points: messages, transform, degree column and result move
    together along the rows, at block index at most 19; the bias block and every column block index are 0. -/
theorem index_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) ≤ 19
    ∧ win3_4.index t (1 : Fin 2) = 0 :=
  (by decide +kernel : ∀ t : Fin grid3.N, _)

/-- Every one of the twenty row blocks is some grid point's. -/
theorem index_onto : ∀ q0 : Fin 20, ∃ t : Fin cfg3.N, win3_4.index t = ![q0.val, 0] :=
  (by decide +kernel : ∀ q0 : Fin 20, ∃ t : Fin grid3.N, win3_4.index t = ![q0.val, 0])

variable (V : (c : Dev nD) → (b : Ref sig .tc) → Buf (Elt Ideal) ((c : Thread nD τ).loc b))

set_option maxHeartbeats 1600000 in
/-- What grid point `t` writes back is block `t` of `combine` of the four arrays as the region finds them. -/
theorem flushed_eq (c : Dev nD) (t : Fin cfg3.N) :
    (dat3 V c).flushed 4 t = ((cfg3.win 4).blk t).view.read (Elt Ideal) (combine (V c main_v59) (V c main_v47) (V c main_v15) (V c main_v60)) := by
  show (cfg3.win 4).cut (grid3.coords t) ((dat3 V c).after 4 t) = _
  rw [after3_4]
  unfold out3_4
  rw [View.canon_unit_zero zero_off]
  simp only [View.ld_unit_zero (S := S10000x64) zero_off, View.ld_unit_zero (S := S10000x1) zero_off, View.ld_unit_zero (S := S1x64) zero_off]
  obtain ⟨e0, e1, e2, e3, e4, e5, e6, e7, e8, e9⟩ := index_facts t
  funext j
  obtain ⟨p, q, rfl⟩ : ∃ (p : Fin 10000) (q : Fin 64), j = ix2 p q := ⟨j 0, j 1, eq_ix2 j⟩
  refine (block_apply (iblk3 V c 3 t) (iblk3 V c 0 t) (iblk3 V c 2 t) (iblk3 V c 1 t) p q).trans ?_
  have h0 : ((cfg3.win 0).blk t).view.emb (ix2 p q) = ((cfg3.win 4).blk t).view.emb (ix2 p q) := by
    funext a; apply Fin.ext
    match a with
    | ⟨0, _⟩ => show win3_0.index t (0 : Fin 2) * 10000 + 1 * p.val = win3_4.index t (0 : Fin 2) * 10000 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 10000 + 1 * p.val = win3_4.index t (0 : Fin 2) * 10000 + 1 * p.val; omega
    | ⟨1, _⟩ => show win3_1.index t (1 : Fin 2) * 64 + 1 * q.val = win3_4.index t (1 : Fin 2) * 64 + 1 * q.val; omega
  have h2 : ((cfg3.win 2).blk t).view.emb (ix2 p (0 : Fin 1)) = ix2 ((((cfg3.win 4).blk t).view.emb (ix2 p q)) 0) (0 : Fin 1) := by
    funext a; apply Fin.ext
    match a with
    | ⟨0, _⟩ => show win3_2.index t (0 : Fin 2) * 10000 + 1 * p.val = win3_4.index t (0 : Fin 2) * 10000 + 1 * p.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  have g0 : iblk3 V c 0 t (ix2 p q) = V c main_v59 (((cfg3.win 4).blk t).view.emb (ix2 p q)) := congrArg (V c main_v59) h0
  have g1 : iblk3 V c 1 t (ix2 p q) = V c main_v47 (((cfg3.win 4).blk t).view.emb (ix2 p q)) := congrArg (V c main_v47) h1
  have g2 : iblk3 V c 2 t (ix2 p (0 : Fin 1)) = V c main_v15 (ix2 ((((cfg3.win 4).blk t).view.emb (ix2 p q)) 0) (0 : Fin 1)) := congrArg (V c main_v15) h2
  have g3 : iblk3 V c 3 t (ix2 (0 : Fin 1) q) = V c main_v60 (ix2 (0 : Fin 1) ((((cfg3.win 4).blk t).view.emb (ix2 p q)) 1)) := congrArg (V c main_v60) h3
  rw [g0, g1, g2, g3]
  rfl

/-- An entry of the result lies in point `t`'s block iff each coordinate lies in the block's range on its axis. -/
theorem mem_block (t : Fin cfg3.N) (i : S200000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v61).slice (win3_4.rect t)).set ↔ _
  rw [View.set_slice_whole, Rect.mem_set_unit]
  exact Iff.rfl

/-- Every entry of the result is written: row `r` by the point whose block index is `r / 10000`. -/
theorem covered (i : S200000x64.Idx) :
    ∃ t : Fin cfg3.N, (cfg3.win 4).flush t = true ∧ i ∈ ((cfg3.win 4).blk t).view.set := by
  have hi0 : (i 0).val < 200000 := (i 0).isLt
  have hi1 : (i 1).val < 64 := (i 1).isLt
  obtain ⟨t, ht⟩ := index_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- The array the region leaves: `combine` of the four arrays it found. -/
theorem final (c : Dev nD) :
    (dat3 V c).arrAt 4 cfg3.N = combine (V c main_v59) (V c main_v47) (V c main_v15) (V c main_v60) :=
  (dat3 V c).arrAt_eq_of_cover 4 (combine (V c main_v59) (V c main_v47) (V c main_v15) (V c main_v60)) (fun t _ => flushed_eq V c t) (covered)

end Cert.KernelIdeal.Combine2

end
-- ==== Proof.Combine3.lean ====
/-
  The combine step of graph-convolution layer 3: from the aggregated neighbour messages `agg`, the layer's dense
  transform `h`, the squared inverse-root degree `d` (one column) and the bias `b` (one row), entry `(r, q)` of the result is
  `max ((agg[r, q] + d[r, 0] · h[r, q]) + b[0, q]) 0`. The kernel computes it twenty blocks of 10000 rows at a time; the
  degree column moves with the row block, the bias row is the same at every point, and a cast between equal shapes is the
  identity, so each block is the restriction of ONE function of the four whole arrays, `combine`. The twenty row blocks
  tile the `200000 × 32` result (row `r` lies in block `r / 10000`).
-/
import proofs.«155246_j18021682774333_1_alg».proof.Proof.Gen.KernelIdeal.Frame
import Idealize.ShloMosaic.Lib.Pipeline.Value
import Idealize.ShloMosaic.Lib.ValueIdx

set_option maxRecDepth 16384

noncomputable section

namespace Cert.KernelIdeal.Combine3

open Cert.KernelIdeal Cert.KernelIdeal.Gen Idealize.ShloMosaic Idealize.ShloMosaic.TcCoe Idealize.ShloMosaic.ValueIdx Idealize.SL.Sem
open Idealize.ShloMosaic.Pipeline (Dat)

/-- Messages plus the degree-scaled self term plus the bias, clipped below at zero. -/
def combine (agg h : FVec Ideal S200000x32 .f32) (d : FVec Ideal S200000x1 .f32) (b : FVec Ideal S1x32 .f32) : FVec Ideal S200000x32 .f32 :=
  fun i => FloatOps.maximumf (FloatOps.addf (FloatOps.addf (agg i) (FloatOps.mulf (d (ix2 (i 0) (0 : Fin 1))) (h i))) (b (ix2 (0 : Fin 1) (i 1)))) (Scalar.ofBits .f32 0x00000000#32)

/-- The degree column broadcast along the channels reads, at entry `(p, q)`, the column's entry `p`. -/
theorem column_at {α : Type} (d : S10000x1.Idx → α) (p : Fin 10000) (q : Fin 32) :
    broadcastTo S10000x32 d broadcasts_S10000x1_S10000x32 (ix2 p q) = d (ix2 p (0 : Fin 1)) :=
  broadcastTo_apply d broadcasts_S10000x1_S10000x32 (ix2 p q) (ix2 p (0 : Fin 1)) (fun a => by match a with | ⟨0, _⟩ => rfl | ⟨1, _⟩ => rfl)

/-- The bias row broadcast along the rows reads, at entry `(p, q)`, the row's entry `q`. -/
theorem row_at {α : Type} (b : S1x32.Idx → α) (p : Fin 10000) (q : Fin 32) :
    broadcastTo S10000x32 b broadcasts_S1x32_S10000x32 (ix2 p q) = b (ix2 (0 : Fin 1) q) :=
  broadcastTo_apply b broadcasts_S1x32_S10000x32 (ix2 p q) (ix2 (0 : Fin 1) q) (fun a => by match a with | ⟨0, _⟩ => rfl | ⟨1, _⟩ => rfl)

/-- One block's result read at an entry: the degree at the entry's row, the bias at the entry's column. -/
theorem block_apply (b : Vec Ideal S1x32 .f32) (a : Vec Ideal S10000x32 .f32) (d : Vec Ideal S10000x1 .f32) (h : Vec Ideal S10000x32 .f32)
    (p : Fin 10000) (q : Fin 32) :
    k5_pay1 (F := Ideal) b a d h (ix2 p q)
      = FloatOps.maximumf (FloatOps.addf (FloatOps.addf (a (ix2 p q)) (FloatOps.mulf (d (ix2 p (0 : Fin 1))) (h (ix2 p q)))) (b (ix2 (0 : Fin 1) q))) (Scalar.ofBits .f32 0x00000000#32) := by
  unfold k5_pay1
  simp only [shapeCast_self]
  exact congrArg₂ (fun (u v : Ideal .f32) => FloatOps.maximumf (FloatOps.addf (FloatOps.addf (a (ix2 p q)) (FloatOps.mulf u (h (ix2 p q)))) v) (Scalar.ofBits .f32 0x00000000#32))
    (column_at d p q) (row_at b p q)

theorem zero_off : (![0, 0] : Fin 2 → Nat) = fun _ => 0 := funext fun a => by fin_cases a <;> rfl

/-- The printed block maps, decided over the twenty grid points: messages, transform, degree column and result move
    together along the rows, at block index at most 19; the bias block and every column block index are 0. -/
theorem index_facts : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (0 : Fin 2) ≤ 19
    ∧ win5_4.index t (1 : Fin 2) = 0 :=
  (by decide +kernel : ∀ t : Fin grid5.N, _)

/-- Every one of the twenty row blocks is some grid point's. -/
theorem index_onto : ∀ q0 : Fin 20, ∃ t : Fin cfg5.N, win5_4.index t = ![q0.val, 0] :=
  (by decide +kernel : ∀ q0 : Fin 20, ∃ t : Fin grid5.N, win5_4.index t = ![q0.val, 0])

variable (V : (c : Dev nD) → (b : Ref sig .tc) → Buf (Elt Ideal) ((c : Thread nD τ).loc b))

set_option maxHeartbeats 1600000 in
/-- What grid point `t` writes back is block `t` of `combine` of the four arrays as the region finds them. -/
theorem flushed_eq (c : Dev nD) (t : Fin cfg5.N) :
    (dat5 V c).flushed 4 t = ((cfg5.win 4).blk t).view.read (Elt Ideal) (combine (V c main_v74) (V c main_v62) (V c main_v15) (V c main_v75)) := by
  show (cfg5.win 4).cut (grid5.coords t) ((dat5 V c).after 4 t) = _
  rw [after5_4]
  unfold out5_4
  rw [View.canon_unit_zero zero_off]
  simp only [View.ld_unit_zero (S := S10000x32) zero_off, View.ld_unit_zero (S := S10000x1) zero_off, View.ld_unit_zero (S := S1x32) zero_off]
  obtain ⟨e0, e1, e2, e3, e4, e5, e6, e7, e8, e9⟩ := index_facts t
  funext j
  obtain ⟨p, q, rfl⟩ : ∃ (p : Fin 10000) (q : Fin 32), j = ix2 p q := ⟨j 0, j 1, eq_ix2 j⟩
  refine (block_apply (iblk5 V c 3 t) (iblk5 V c 0 t) (iblk5 V c 2 t) (iblk5 V c 1 t) p q).trans ?_
  have h0 : ((cfg5.win 0).blk t).view.emb (ix2 p q) = ((cfg5.win 4).blk t).view.emb (ix2 p q) := by
    funext a; apply Fin.ext
    match a with
    | ⟨0, _⟩ => show win5_0.index t (0 : Fin 2) * 10000 + 1 * p.val = win5_4.index t (0 : Fin 2) * 10000 + 1 * p.val; omega
    | ⟨1, _⟩ => show win5_0.index t (1 : Fin 2) * 32 + 1 * q.val = win5_4.index t (1 : Fin 2) * 32 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 10000 + 1 * p.val = win5_4.index t (0 : Fin 2) * 10000 + 1 * p.val; omega
    | ⟨1, _⟩ => show win5_1.index t (1 : Fin 2) * 32 + 1 * q.val = win5_4.index t (1 : Fin 2) * 32 + 1 * q.val; omega
  have h2 : ((cfg5.win 2).blk t).view.emb (ix2 p (0 : Fin 1)) = ix2 ((((cfg5.win 4).blk t).view.emb (ix2 p q)) 0) (0 : Fin 1) := by
    funext a; apply Fin.ext
    match a with
    | ⟨0, _⟩ => show win5_2.index t (0 : Fin 2) * 10000 + 1 * p.val = win5_4.index t (0 : Fin 2) * 10000 + 1 * p.val; omega
    | ⟨1, _⟩ => show win5_2.index t (1 : Fin 2) * 1 + 1 * 0 = 0; omega
  have h3 : ((cfg5.win 3).blk t).view.emb (ix2 (0 : Fin 1) q) = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 32 + 1 * q.val = win5_4.index t (1 : Fin 2) * 32 + 1 * q.val; omega
  have g0 : iblk5 V c 0 t (ix2 p q) = V c main_v74 (((cfg5.win 4).blk t).view.emb (ix2 p q)) := congrArg (V c main_v74) h0
  have g1 : iblk5 V c 1 t (ix2 p q) = V c main_v62 (((cfg5.win 4).blk t).view.emb (ix2 p q)) := congrArg (V c main_v62) h1
  have g2 : iblk5 V c 2 t (ix2 p (0 : Fin 1)) = V c main_v15 (ix2 ((((cfg5.win 4).blk t).view.emb (ix2 p q)) 0) (0 : Fin 1)) := congrArg (V c main_v15) h2
  have g3 : iblk5 V c 3 t (ix2 (0 : Fin 1) q) = V c main_v75 (ix2 (0 : Fin 1) ((((cfg5.win 4).blk t).view.emb (ix2 p q)) 1)) := congrArg (V c main_v75) h3
  rw [g0, g1, g2, g3]
  rfl

/-- An entry of the result lies in point `t`'s block iff each coordinate lies in the block's range on its axis. -/
theorem mem_block (t : Fin cfg5.N) (i : S200000x32.Idx) :
    i ∈ ((cfg5.win 4).blk t).view.set ↔ ∀ a : Fin 2, win5_4.index t a * S10000x32.size a ≤ (i a).val ∧ (i a).val < win5_4.index t a * S10000x32.size a + S10000x32.size a := by
  show i ∈ ((View.whole main_v76).slice (win5_4.rect t)).set ↔ _
  rw [View.set_slice_whole, Rect.mem_set_unit]
  exact Iff.rfl

/-- Every entry of the result is written: row `r` by the point whose block index is `r / 10000`. -/
theorem covered (i : S200000x32.Idx) :
    ∃ t : Fin cfg5.N, (cfg5.win 4).flush t = true ∧ i ∈ ((cfg5.win 4).blk t).view.set := by
  have hi0 : (i 0).val < 200000 := (i 0).isLt
  have hi1 : (i 1).val < 32 := (i 1).isLt
  obtain ⟨t, ht⟩ := index_onto ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_block]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 32 ≤ (i 1).val ∧ (i 1).val < win5_4.index t (1 : Fin 2) * 32 + 32; omega

/-- The array the region leaves: `combine` of the four arrays it found. -/
theorem final (c : Dev nD) :
    (dat5 V c).arrAt 4 cfg5.N = combine (V c main_v74) (V c main_v62) (V c main_v15) (V c main_v75) :=
  (dat5 V c).arrAt_eq_of_cover 4 (combine (V c main_v74) (V c main_v62) (V c main_v15) (V c main_v75)) (fun t _ => flushed_eq V c t) (covered)

end Cert.KernelIdeal.Combine3

end
-- ==== Proof.Head.lean ====
/-
  The pooling head: from the per-graph feature sums, the per-graph node counts (one column), two weight matrices and two
  bias rows, the body computes `sums / max(counts, 1)`, a first product plus bias clipped below at zero, and a second product
  plus bias. The region has ONE grid point and each of its seven blocks is its whole array, so what the region leaves in
  the result array is the body's one stored value computed from the six whole arrays as the region finds them.
-/
import proofs.«155246_j18021682774333_1_alg».proof.Proof.Gen.KernelIdeal.Frame
import Idealize.ShloMosaic.Lib.Pipeline.Value
import Idealize.ShloMosaic.Lib.ValueIdx

set_option maxRecDepth 16384

noncomputable section

namespace Cert.KernelIdeal.Head

open Cert.KernelIdeal Cert.KernelIdeal.Gen Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

/-- The printed block maps at the one grid point: every block index is 0. -/
theorem index_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

variable (V : (c : Dev nD) → (b : Ref sig .tc) → Buf (Elt Ideal) ((c : Thread nD τ).loc b))

/-- Window 0's block at the one point is its whole array. -/
theorem block0_eq (c : Dev nD) (t : Fin cfg6.N) : (iblk6 V c 0 t : Vec Ideal S2048x32 .f32) = V c main_v79 := by
  obtain ⟨e0, e1, e2, e3, e4, e5, e6, e7, e8, e9, e10, e11, e12, e13⟩ := index_facts t
  funext y
  show V c main_v79 (((cfg6.win 0).blk t).view.emb y) = V c main_v79 y
  refine congrArg (V c main_v79) (funext fun a => Fin.ext ?_)
  match a with
  | ⟨0, _⟩ => show win6_0.index t (0 : Fin 2) * 2048 + 1 * (y 0).val = (y 0).val; omega
  | ⟨1, _⟩ => show win6_0.index t (1 : Fin 2) * 32 + 1 * (y 1).val = (y 1).val; omega

/-- Window 1's block at the one point is its whole array. -/
theorem block1_eq (c : Dev nD) (t : Fin cfg6.N) : (iblk6 V c 1 t : Vec Ideal S2048x1 .f32) = V c main_v84 := by
  obtain ⟨e0, e1, e2, e3, e4, e5, e6, e7, e8, e9, e10, e11, e12, e13⟩ := index_facts t
  funext y
  show V c main_v84 (((cfg6.win 1).blk t).view.emb y) = V c main_v84 y
  refine congrArg (V c main_v84) (funext fun a => Fin.ext ?_)
  match a with
  | ⟨0, _⟩ => show win6_1.index t (0 : Fin 2) * 2048 + 1 * (y 0).val = (y 0).val; omega
  | ⟨1, _⟩ => show win6_1.index t (1 : Fin 2) * 1 + 1 * (y 1).val = (y 1).val; omega

/-- Window 2's block at the one point is its whole array. -/
theorem block2_eq (c : Dev nD) (t : Fin cfg6.N) : (iblk6 V c 2 t : Vec Ideal S32x16 .f32) = V c main_arg9 := by
  obtain ⟨e0, e1, e2, e3, e4, e5, e6, e7, e8, e9, e10, e11, e12, e13⟩ := index_facts t
  funext y
  show V c main_arg9 (((cfg6.win 2).blk t).view.emb y) = V c main_arg9 y
  refine congrArg (V c main_arg9) (funext fun a => Fin.ext ?_)
  match a with
  | ⟨0, _⟩ => show win6_2.index t (0 : Fin 2) * 32 + 1 * (y 0).val = (y 0).val; omega
  | ⟨1, _⟩ => show win6_2.index t (1 : Fin 2) * 16 + 1 * (y 1).val = (y 1).val; omega

/-- Window 3's block at the one point is its whole array. -/
theorem block3_eq (c : Dev nD) (t : Fin cfg6.N) : (iblk6 V c 3 t : Vec Ideal S1x16 .f32) = V c main_v85 := by
  obtain ⟨e0, e1, e2, e3, e4, e5, e6, e7, e8, e9, e10, e11, e12, e13⟩ := index_facts t
  funext y
  show V c main_v85 (((cfg6.win 3).blk t).view.emb y) = V c main_v85 y
  refine congrArg (V c main_v85) (funext fun a => Fin.ext ?_)
  match a with
  | ⟨0, _⟩ => show win6_3.index t (0 : Fin 2) * 1 + 1 * (y 0).val = (y 0).val; omega
  | ⟨1, _⟩ => show win6_3.index t (1 : Fin 2) * 16 + 1 * (y 1).val = (y 1).val; omega

/-- Window 4's block at the one point is its whole array. -/
theorem block4_eq (c : Dev nD) (t : Fin cfg6.N) : (iblk6 V c 4 t : Vec Ideal S16x1 .f32) = V c main_arg11 := by
  obtain ⟨e0, e1, e2, e3, e4, e5, e6, e7, e8, e9, e10, e11, e12, e13⟩ := index_facts t
  funext y
  show V c main_arg11 (((cfg6.win 4).blk t).view.emb y) = V c main_arg11 y
  refine congrArg (V c main_arg11) (funext fun a => Fin.ext ?_)
  match a with
  | ⟨0, _⟩ => show win6_4.index t (0 : Fin 2) * 16 + 1 * (y 0).val = (y 0).val; omega
  | ⟨1, _⟩ => show win6_4.index t (1 : Fin 2) * 1 + 1 * (y 1).val = (y 1).val; omega

/-- Window 5's block at the one point is its whole array. -/
theorem block5_eq (c : Dev nD) (t : Fin cfg6.N) : (iblk6 V c 5 t : Vec Ideal S1x1 .f32) = V c main_v86 := by
  obtain ⟨e0, e1, e2, e3, e4, e5, e6, e7, e8, e9, e10, e11, e12, e13⟩ := index_facts t
  funext y
  show V c main_v86 (((cfg6.win 5).blk t).view.emb y) = V c main_v86 y
  refine congrArg (V c main_v86) (funext fun a => Fin.ext ?_)
  match a with
  | ⟨0, _⟩ => show win6_5.index t (0 : Fin 2) * 1 + 1 * (y 0).val = (y 0).val; omega
  | ⟨1, _⟩ => show win6_5.index t (1 : Fin 2) * 1 + 1 * (y 1).val = (y 1).val; omega

/-- The body's one stored value, of the six whole arrays. -/
def headOf (c : Dev nD) : FVec Ideal S2048x1 .f32 :=
  k6_pay1 (F := Ideal) (V c main_v84) (V c main_v79) (V c main_arg9) (V c main_v85) (V c main_arg11) (V c main_v86)

/-- What the one grid point writes back is the whole result array at `headOf`. -/
theorem flushed_eq (c : Dev nD) (t : Fin cfg6.N) :
    (dat6 V c).flushed 6 t = ((cfg6.win 6).blk t).view.read (Elt Ideal) (headOf V c) := by
  show (cfg6.win 6).cut (grid6.coords t) ((dat6 V c).after 6 t) = _
  rw [after6_6]
  unfold out6_6
  rw [View.canon_unit_zero zero_off]
  simp only [View.ld_unit_zero (S := S2048x32) zero_off, View.ld_unit_zero (S := S2048x1) zero_off, View.ld_unit_zero (S := S32x16) zero_off, View.ld_unit_zero (S := S1x16) zero_off, View.ld_unit_zero (S := S16x1) zero_off, View.ld_unit_zero (S := S1x1) zero_off]
  rw [block0_eq V c t, block1_eq V c t, block2_eq V c t, block3_eq V c t, block4_eq V c t, block5_eq V c t]
  obtain ⟨e0, e1, e2, e3, e4, e5, e6, e7, e8, e9, e10, e11, e12, e13⟩ := index_facts t
  funext j
  show headOf V c j = headOf V c (((cfg6.win 6).blk t).view.emb j)
  refine congrArg (headOf V c) (funext fun a => Fin.ext ?_)
  match a with
  | ⟨0, _⟩ => show (j 0).val = win6_6.index t (0 : Fin 2) * 2048 + 1 * (j 0).val; omega
  | ⟨1, _⟩ => show (j 1).val = win6_6.index t (1 : Fin 2) * 1 + 1 * (j 1).val; omega

/-- An entry of the result lies in point `t`'s block iff each coordinate lies in the block's range on its axis. -/
theorem mem_block (t : Fin cfg6.N) (i : S2048x1.Idx) :
    i ∈ ((cfg6.win 6).blk t).view.set ↔ ∀ a : Fin 2, win6_6.index t a * S2048x1.size a ≤ (i a).val ∧ (i a).val < win6_6.index t a * S2048x1.size a + S2048x1.size a := by
  show i ∈ ((View.whole main_v87).slice (win6_6.rect t)).set ↔ _
  rw [View.set_slice_whole, Rect.mem_set_unit]
  exact Iff.rfl

/-- Every entry of the result is written by the one point. -/
theorem covered (i : S2048x1.Idx) :
    ∃ t : Fin cfg6.N, (cfg6.win 6).flush t = true ∧ i ∈ ((cfg6.win 6).blk t).view.set := by
  have hi0 : (i 0).val < 2048 := (i 0).isLt
  have hi1 : (i 1).val < 1 := (i 1).isLt
  obtain ⟨e0, e1, e2, e3, e4, e5, e6, e7, e8, e9, e10, e11, e12, e13⟩ := index_facts t6_0
  refine ⟨t6_0, flush6_6 t6_0, ?_⟩
  rw [mem_block]
  intro a
  match a with
  | ⟨0, _⟩ => show win6_6.index t6_0 (0 : Fin 2) * 2048 ≤ (i 0).val ∧ (i 0).val < win6_6.index t6_0 (0 : Fin 2) * 2048 + 2048; omega
  | ⟨1, _⟩ => show win6_6.index t6_0 (1 : Fin 2) * 1 ≤ (i 1).val ∧ (i 1).val < win6_6.index t6_0 (1 : Fin 2) * 1 + 1; omega

/-- The array the region leaves: the body's stored value of the six arrays it found. -/
theorem final (c : Dev nD) : (dat6 V c).arrAt 6 cfg6.N = headOf V c :=
  (dat6 V c).arrAt_eq_of_cover 6 (headOf V c) (fun t _ => flushed_eq V c t) (covered)

end Cert.KernelIdeal.Head

end
-- ==== Proof.Layout.lean ====
/-
  Two spellings of one array. A vector laid out as a single column (or a single row) can be written as a reshape or as
  a broadcast along the one real axis; index by index they are the same array, because the row-major position of
  `(r, 0)` in an `n × 1` array is `r` and that of `(0, q)` in a `1 × n` array is `q`.
-/
import Idealize.ShloMosaic.Lib.Pipeline.Value
import Idealize.ShloMosaic.Lib.ValueIdx

noncomputable section

namespace Cert.Layout

open Idealize.ShloMosaic Idealize.ShloMosaic.ValueIdx

/-- A vector of 200000 entries reshaped to one column is the vector broadcast along the rows' axis: entry `(r, 0)` of either is entry `r`. -/
theorem column_200000 {α : Type} (x : (⟨1, ![200000]⟩ : Shape).Idx → α) (h1 : (⟨1, ![200000]⟩ : Shape).ShapeCasts ⟨2, ![200000, 1]⟩)
    (h2 : (⟨1, ![200000]⟩ : Shape).BroadcastsInDim ⟨2, ![200000, 1]⟩ ![0]) :
    shapeCast ⟨2, ![200000, 1]⟩ x h1 = broadcastInDim ⟨2, ![200000, 1]⟩ ![0] h2 x := by
  funext i
  have hi : (i 1).val < 1 := (i 1).isLt
  rw [shapeCast_apply x h1 i (ix1 (i 0)) (by rw [Shape.rowMajor_val_one, Shape.rowMajor_val_two]; show (i 0).val = (i 0).val * 1 + (i 1).val; omega),
    broadcastInDim_apply ![0] h2 x i (ix1 (i 0)) (fun a => by match a with | ⟨0, _⟩ => rfl)]

/-- A vector of 1250000 entries reshaped to one column is the vector broadcast along the rows' axis: entry `(r, 0)` of either is entry `r`. -/
theorem column_1250000 {α : Type} (x : (⟨1, ![1250000]⟩ : Shape).Idx → α) (h1 : (⟨1, ![1250000]⟩ : Shape).ShapeCasts ⟨2, ![1250000, 1]⟩)
    (h2 : (⟨1, ![1250000]⟩ : Shape).BroadcastsInDim ⟨2, ![1250000, 1]⟩ ![0]) :
    shapeCast ⟨2, ![1250000, 1]⟩ x h1 = broadcastInDim ⟨2, ![1250000, 1]⟩ ![0] h2 x := by
  funext i
  have hi : (i 1).val < 1 := (i 1).isLt
  rw [shapeCast_apply x h1 i (ix1 (i 0)) (by rw [Shape.rowMajor_val_one, Shape.rowMajor_val_two]; show (i 0).val = (i 0).val * 1 + (i 1).val; omega),
    broadcastInDim_apply ![0] h2 x i (ix1 (i 0)) (fun a => by match a with | ⟨0, _⟩ => rfl)]

/-- A vector of 2048 entries reshaped to one column is the vector broadcast along the rows' axis: entry `(r, 0)` of either is entry `r`. -/
theorem column_2048 {α : Type} (x : (⟨1, ![2048]⟩ : Shape).Idx → α) (h1 : (⟨1, ![2048]⟩ : Shape).ShapeCasts ⟨2, ![2048, 1]⟩)
    (h2 : (⟨1, ![2048]⟩ : Shape).BroadcastsInDim ⟨2, ![2048, 1]⟩ ![0]) :
    shapeCast ⟨2, ![2048, 1]⟩ x h1 = broadcastInDim ⟨2, ![2048, 1]⟩ ![0] h2 x := by
  funext i
  have hi : (i 1).val < 1 := (i 1).isLt
  rw [shapeCast_apply x h1 i (ix1 (i 0)) (by rw [Shape.rowMajor_val_one, Shape.rowMajor_val_two]; show (i 0).val = (i 0).val * 1 + (i 1).val; omega),
    broadcastInDim_apply ![0] h2 x i (ix1 (i 0)) (fun a => by match a with | ⟨0, _⟩ => rfl)]

/-- A vector of 64 entries reshaped to one row is the vector broadcast along the columns' axis: entry `(0, q)` of either is entry `q`. -/
theorem row_64 {α : Type} (x : (⟨1, ![64]⟩ : Shape).Idx → α) (h1 : (⟨1, ![64]⟩ : Shape).ShapeCasts ⟨2, ![1, 64]⟩)
    (h2 : (⟨1, ![64]⟩ : Shape).BroadcastsInDim ⟨2, ![1, 64]⟩ ![1]) :
    shapeCast ⟨2, ![1, 64]⟩ x h1 = broadcastInDim ⟨2, ![1, 64]⟩ ![1] h2 x := by
  funext i
  have hi : (i 0).val < 1 := (i 0).isLt
  rw [shapeCast_apply x h1 i (ix1 (i 1)) (by rw [Shape.rowMajor_val_one, Shape.rowMajor_val_two]; show (i 1).val = (i 0).val * 64 + (i 1).val; omega),
    broadcastInDim_apply ![1] h2 x i (ix1 (i 1)) (fun a => by match a with | ⟨0, _⟩ => rfl)]

/-- A vector of 32 entries reshaped to one row is the vector broadcast along the columns' axis: entry `(0, q)` of either is entry `q`. -/
theorem row_32 {α : Type} (x : (⟨1, ![32]⟩ : Shape).Idx → α) (h1 : (⟨1, ![32]⟩ : Shape).ShapeCasts ⟨2, ![1, 32]⟩)
    (h2 : (⟨1, ![32]⟩ : Shape).BroadcastsInDim ⟨2, ![1, 32]⟩ ![1]) :
    shapeCast ⟨2, ![1, 32]⟩ x h1 = broadcastInDim ⟨2, ![1, 32]⟩ ![1] h2 x := by
  funext i
  have hi : (i 0).val < 1 := (i 0).isLt
  rw [shapeCast_apply x h1 i (ix1 (i 1)) (by rw [Shape.rowMajor_val_one, Shape.rowMajor_val_two]; show (i 1).val = (i 0).val * 32 + (i 1).val; omega),
    broadcastInDim_apply ![1] h2 x i (ix1 (i 1)) (fun a => by match a with | ⟨0, _⟩ => rfl)]

/-- A vector of 16 entries reshaped to one row is the vector broadcast along the columns' axis: entry `(0, q)` of either is entry `q`. -/
theorem row_16 {α : Type} (x : (⟨1, ![16]⟩ : Shape).Idx → α) (h1 : (⟨1, ![16]⟩ : Shape).ShapeCasts ⟨2, ![1, 16]⟩)
    (h2 : (⟨1, ![16]⟩ : Shape).BroadcastsInDim ⟨2, ![1, 16]⟩ ![1]) :
    shapeCast ⟨2, ![1, 16]⟩ x h1 = broadcastInDim ⟨2, ![1, 16]⟩ ![1] h2 x := by
  funext i
  have hi : (i 0).val < 1 := (i 0).isLt
  rw [shapeCast_apply x h1 i (ix1 (i 1)) (by rw [Shape.rowMajor_val_one, Shape.rowMajor_val_two]; show (i 1).val = (i 0).val * 16 + (i 1).val; omega),
    broadcastInDim_apply ![1] h2 x i (ix1 (i 1)) (fun a => by match a with | ⟨0, _⟩ => rfl)]

/-- A vector of 1 entries reshaped to one row is the vector broadcast along the columns' axis: entry `(0, q)` of either is entry `q`. -/
theorem row_1 {α : Type} (x : (⟨1, ![1]⟩ : Shape).Idx → α) (h1 : (⟨1, ![1]⟩ : Shape).ShapeCasts ⟨2, ![1, 1]⟩)
    (h2 : (⟨1, ![1]⟩ : Shape).BroadcastsInDim ⟨2, ![1, 1]⟩ ![1]) :
    shapeCast ⟨2, ![1, 1]⟩ x h1 = broadcastInDim ⟨2, ![1, 1]⟩ ![1] h2 x := by
  funext i
  have hi : (i 0).val < 1 := (i 0).isLt
  rw [shapeCast_apply x h1 i (ix1 (i 1)) (by rw [Shape.rowMajor_val_one, Shape.rowMajor_val_two]; show (i 1).val = (i 0).val * 1 + (i 1).val; omega),
    broadcastInDim_apply ![1] h2 x i (ix1 (i 1)) (fun a => by match a with | ⟨0, _⟩ => (have h1 : (i 1).val < 1 := (i 1).isLt; show (i 1).val = 0; omega))]

end Cert.Layout

end
-- ==== Proof.Stages.lean ====
/-
  The reference, stage by stage, is what the kernel's regions compute. The reference recomputes the edge normalisation
  and the squared inverse-root degree in every layer from the same degree vector, so those later stages are the first
  ones; each layer's dense transform is the reference's matrix product (one sum over the channels); each layer's combine
  is the reference's sum of messages, degree-scaled self term and bias, clipped at zero, with the degree column and the
  bias row read through the reference's broadcasts.
-/
import proofs.«155246_j18021682774333_1_alg».proof.Proof.ReadPatched
import proofs.«155246_j18021682774333_1_alg».proof.Proof.Dense1
import proofs.«155246_j18021682774333_1_alg».proof.Proof.Dense2
import proofs.«155246_j18021682774333_1_alg».proof.Proof.Dense3
import proofs.«155246_j18021682774333_1_alg».proof.Proof.Combine1
import proofs.«155246_j18021682774333_1_alg».proof.Proof.Combine2
import proofs.«155246_j18021682774333_1_alg».proof.Proof.Combine3

set_option maxRecDepth 16384

noncomputable section

open scoped BigOperators

namespace Cert.Stages

open Cert.ReferenceIdeal Cert.ReferenceIdeal.ReadP Idealize.ShloMosaic Idealize.ShloMosaic.TcCoe Idealize.ShloMosaic.ValueIdx

/-- The edge normalisation the reference recomputes for layer 2 is layer 1's. -/
theorem norm2 (x1 : (⟨S2x1250000, .i32⟩ : BufTy).Contents (Elt Ideal)) : val_main_v75 (F := Ideal) x1 = val_main_v37 (F := Ideal) x1 := rfl
/-- The edge normalisation the reference recomputes for layer 3 is layer 1's. -/
theorem norm3 (x1 : (⟨S2x1250000, .i32⟩ : BufTy).Contents (Elt Ideal)) : val_main_v113 (F := Ideal) x1 = val_main_v37 (F := Ideal) x1 := rfl
/-- The squared inverse-root degree column the reference recomputes for layer 2 is layer 1's. -/
theorem degsq2 (x1 : (⟨S2x1250000, .i32⟩ : BufTy).Contents (Elt Ideal)) : val_main_v82 (F := Ideal) x1 = val_main_v44 (F := Ideal) x1 := rfl
/-- The squared inverse-root degree column the reference recomputes for layer 3 is layer 1's. -/
theorem degsq3 (x1 : (⟨S2x1250000, .i32⟩ : BufTy).Contents (Elt Ideal)) : val_main_v120 (F := Ideal) x1 = val_main_v44 (F := Ideal) x1 := rfl

/-- Layer 1's dense transform of the reference's stage is the reference's matrix product: both are the sum over the
    128 channels of feature times weight. -/
theorem dense1 (x0 : (⟨S200000x128, .f32⟩ : BufTy).Contents (Elt Ideal)) (x3 : (⟨S128x64, .f32⟩ : BufTy).Contents (Elt Ideal)) :
    Cert.KernelIdeal.Dense1.rowsTimes x0 x3 = val_main_v14 (F := Ideal) x0 x3 := by
  funext i
  rw [val_main_v14_apply]
  refine Finset.sum_congr rfl fun k _ => ?_
  have el : lidx_main_v14 i k = ix2 (i 0) k := funext fun a => by match a with | ⟨0, _⟩ => rfl | ⟨1, _⟩ => rfl
  have er : ridx_main_v14 i k = ix2 k (i 1) := funext fun a => by match a with | ⟨0, _⟩ => rfl | ⟨1, _⟩ => rfl
  rw [el, er]
  rfl

/-- Layer 2's dense transform of the reference's stage is the reference's matrix product: both are the sum over the
    64 channels of feature times weight. -/
theorem dense2 (x0 : (⟨S200000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    Cert.KernelIdeal.Dense2.rowsTimes (val_main_v51 (F := Ideal) x0 x1 x3 x4) x5 = val_main_v52 (F := Ideal) x0 x1 x3 x4 x5 := by
  funext i
  rw [val_main_v52_apply]
  refine Finset.sum_congr rfl fun k _ => ?_
  have el : lidx_main_v52 i k = ix2 (i 0) k := funext fun a => by match a with | ⟨0, _⟩ => rfl | ⟨1, _⟩ => rfl
  have er : ridx_main_v52 i k = ix2 k (i 1) := funext fun a => by match a with | ⟨0, _⟩ => rfl | ⟨1, _⟩ => rfl
  rw [el, er]
  rfl

/-- Layer 3's dense transform of the reference's stage is the reference's matrix product: both are the sum over the
    64 channels of feature times weight. -/
theorem dense3 (x0 : (⟨S200000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) :
    Cert.KernelIdeal.Dense3.rowsTimes (val_main_v89 (F := Ideal) x0 x1 x3 x4 x5 x6) x7 = val_main_v90 (F := Ideal) x0 x1 x3 x4 x5 x6 x7 := by
  funext i
  rw [val_main_v90_apply]
  refine Finset.sum_congr rfl fun k _ => ?_
  have el : lidx_main_v90 i k = ix2 (i 0) k := funext fun a => by match a with | ⟨0, _⟩ => rfl | ⟨1, _⟩ => rfl
  have er : ridx_main_v90 i k = ix2 k (i 1) := funext fun a => by match a with | ⟨0, _⟩ => rfl | ⟨1, _⟩ => rfl
  rw [el, er]
  rfl

/-- Layer 1's combine of the reference's stages is the reference's activation: the same sum, product and maximum at every
    entry, the degree column and the bias row read through the reference's two broadcasts. -/
theorem combine1 (x0 : (⟨S200000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) :
    Cert.KernelIdeal.Combine1.combine (val_main_v42 (F := Ideal) x0 x1 x3) (val_main_v14 (F := Ideal) x0 x3) (val_main_v44 (F := Ideal) x1) (val_main_v48 (F := Ideal) x4) = val_main_v51 (F := Ideal) x0 x1 x3 x4 := by
  funext i
  have ed : idx_main_v45 i = ix2 (i 0) (0 : Fin 1) := funext fun a => by match a with | ⟨0, _⟩ => rfl | ⟨1, _⟩ => rfl
  have eb : idx_main_v49 i = ix2 (0 : Fin 1) (i 1) := funext fun a => by match a with | ⟨0, _⟩ => rfl | ⟨1, _⟩ => rfl
  rw [val_main_v51_apply, val_main_v50_apply, val_main_v47_apply, val_main_v46_apply, val_main_v45_apply, val_main_v49_apply,
    val_main_call1_v0_apply, val_main_call1_cst_apply, ed, eb]
  rfl

/-- Layer 2's combine of the reference's stages is the reference's activation: the same sum, product and maximum at every
    entry, the degree column and the bias row read through the reference's two broadcasts. -/
theorem combine2 (x0 : (⟨S200000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    Cert.KernelIdeal.Combine2.combine (val_main_v80 (F := Ideal) x0 x1 x3 x4 x5) (val_main_v52 (F := Ideal) x0 x1 x3 x4 x5) (val_main_v44 (F := Ideal) x1) (val_main_v86 (F := Ideal) x6) = val_main_v89 (F := Ideal) x0 x1 x3 x4 x5 x6 := by
  funext i
  have ed : idx_main_v83 i = ix2 (i 0) (0 : Fin 1) := funext fun a => by match a with | ⟨0, _⟩ => rfl | ⟨1, _⟩ => rfl
  have eb : idx_main_v87 i = ix2 (0 : Fin 1) (i 1) := funext fun a => by match a with | ⟨0, _⟩ => rfl | ⟨1, _⟩ => rfl
  rw [val_main_v89_apply, val_main_v88_apply, val_main_v85_apply, val_main_v84_apply, val_main_v83_apply, val_main_v87_apply,
    val_main_call2_v0_apply, val_main_call2_cst_apply, ed, eb, degsq2]
  rfl

/-- Layer 3's combine of the reference's stages is the reference's activation: the same sum, product and maximum at every
    entry, the degree column and the bias row read through the reference's two broadcasts. -/
theorem combine3 (x0 : (⟨S200000x128, .f32⟩ : BufTy).Contents (Elt Ideal)) (x1 : (⟨S2x1250000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) :
    Cert.KernelIdeal.Combine3.combine (val_main_v118 (F := Ideal) x0 x1 x3 x4 x5 x6 x7) (val_main_v90 (F := Ideal) x0 x1 x3 x4 x5 x6 x7) (val_main_v44 (F := Ideal) x1) (val_main_v124 (F := Ideal) x8) = val_main_v127 (F := Ideal) x0 x1 x3 x4 x5 x6 x7 x8 := by
  funext i
  have ed : idx_main_v121 i = ix2 (i 0) (0 : Fin 1) := funext fun a => by match a with | ⟨0, _⟩ => rfl | ⟨1, _⟩ => rfl
  have eb : idx_main_v125 i = ix2 (0 : Fin 1) (i 1) := funext fun a => by match a with | ⟨0, _⟩ => rfl | ⟨1, _⟩ => rfl
  rw [val_main_v127_apply, val_main_v126_apply, val_main_v123_apply, val_main_v122_apply, val_main_v121_apply, val_main_v125_apply,
    val_main_call3_v0_apply, val_main_call3_cst_apply, ed, eb, degsq3]
  rfl

end Cert.Stages

end
-- ==== Proof.HeadAt.lean ====
/-
  The pooling head's stored value read at an entry. For graph `g`: the mean features are `sums[g, k] / max(counts[g, 0], 1)`;
  the hidden unit `j` is `max ((∑ k, mean[g, k] · W₁[k, j]) + b₁[0, j]) 0`; the output is `(∑ j, hidden[g, j] · W₂[j, 0]) + b₂[0, 0]`.
  A narrowing of the float format is the identity on the extended reals, each product accumulates onto zero, and the three
  broadcasts read the count column at the entry's row and the bias rows at the entry's column.
-/
import proofs.«155246_j18021682774333_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HeadAt

open Cert.KernelIdeal Cert.KernelIdeal.Gen Idealize.ShloMosaic Idealize.ShloMosaic.TcCoe Idealize.ShloMosaic.ValueIdx

/-- The first product's left operand index keeps the entry's row … -/
theorem first_lhs_row (i : S2048x16.Idx) (r : dot_S2048x32_S32x16_S2048x16_1_0_0_1_n_n.contr.Idx) : (dot_S2048x32_S32x16_S2048x16_1_0_0_1_n_n.lhsIdx i r 0).val = (i 0).val := by
  unfold DotDims.lhsIdx
  rw [dif_neg (show ¬(0 : Fin S2048x32.rank) ∈ dot_S2048x32_S32x16_S2048x16_1_0_0_1_n_n.lhsBatch by decide), dif_pos (show (0 : Fin S2048x32.rank) ∈ dot_S2048x32_S32x16_S2048x16_1_0_0_1_n_n.lhsNonContracting by decide)]
  rfl
/-- … and takes the contracted index as its column; the right operand takes it as its row … -/
theorem first_lhs_chan (i : S2048x16.Idx) (r : dot_S2048x32_S32x16_S2048x16_1_0_0_1_n_n.contr.Idx) : (dot_S2048x32_S32x16_S2048x16_1_0_0_1_n_n.lhsIdx i r 1).val = (r ⟨0, by decide⟩).val :=
  dot_S2048x32_S32x16_S2048x16_1_0_0_1_n_n.lhsIdx_val_of_single rfl i r
theorem first_rhs_chan (i : S2048x16.Idx) (r : dot_S2048x32_S32x16_S2048x16_1_0_0_1_n_n.contr.Idx) : (dot_S2048x32_S32x16_S2048x16_1_0_0_1_n_n.rhsIdx i r 0).val = (r ⟨0, by decide⟩).val :=
  dot_S2048x32_S32x16_S2048x16_1_0_0_1_n_n.rhsIdx_val_of_single rfl i r
/-- … and keeps the entry's column. -/
theorem first_rhs_col (i : S2048x16.Idx) (r : dot_S2048x32_S32x16_S2048x16_1_0_0_1_n_n.contr.Idx) : (dot_S2048x32_S32x16_S2048x16_1_0_0_1_n_n.rhsIdx i r 1).val = (i 1).val := by
  unfold DotDims.rhsIdx
  rw [dif_neg (show ¬(1 : Fin S32x16.rank) ∈ dot_S2048x32_S32x16_S2048x16_1_0_0_1_n_n.rhsBatch by decide), dif_pos (show (1 : Fin S32x16.rank) ∈ dot_S2048x32_S32x16_S2048x16_1_0_0_1_n_n.rhsNonContracting by decide)]
  rfl

/-- The first product onto zero, read at an entry: the sum over the 32 contracted indices. -/
theorem first_apply {φ₁ φ₂ : FTy} (E : FVec Ideal S2048x32 φ₁) (w : FVec Ideal S32x16 φ₂) (g : Fin 2048) (j : Fin 16) :
    FloatOps.matmul dot_S2048x32_S32x16_S2048x16_1_0_0_1_n_n none E w (constant S2048x16 .f32 0x00000000#32) (ix2 g j) = ∑ k : Fin 32, E (ix2 g k) * w (ix2 k j) := by
  rw [Ideal.matmul_constant_zero_apply, ← Equiv.sum_comp (ValueIdx.contrEquiv1 dot_S2048x32_S32x16_S2048x16_1_0_0_1_n_n 32 rfl rfl).symm]
  refine Finset.sum_congr rfl fun k _ => ?_
  have hk := ValueIdx.contrEquiv1_symm_val dot_S2048x32_S32x16_S2048x16_1_0_0_1_n_n 32 rfl rfl k
  have el : dot_S2048x32_S32x16_S2048x16_1_0_0_1_n_n.lhsIdx (ix2 g j) ((ValueIdx.contrEquiv1 dot_S2048x32_S32x16_S2048x16_1_0_0_1_n_n 32 rfl rfl).symm k) = ix2 g k := funext fun a => Fin.ext (by
    match a with
    | ⟨0, _⟩ => exact first_lhs_row _ _
    | ⟨1, _⟩ => exact (first_lhs_chan _ _).trans hk)
  have er : dot_S2048x32_S32x16_S2048x16_1_0_0_1_n_n.rhsIdx (ix2 g j) ((ValueIdx.contrEquiv1 dot_S2048x32_S32x16_S2048x16_1_0_0_1_n_n 32 rfl rfl).symm k) = ix2 k j := funext fun a => Fin.ext (by
    match a with
    | ⟨0, _⟩ => exact (first_rhs_chan _ _).trans hk
    | ⟨1, _⟩ => exact first_rhs_col _ _)
  rw [el, er]

/-- The second product's left operand index keeps the entry's row … -/
theorem second_lhs_row (i : S2048x1.Idx) (r : dot_S2048x16_S16x1_S2048x1_1_0_0_1_n_n.contr.Idx) : (dot_S2048x16_S16x1_S2048x1_1_0_0_1_n_n.lhsIdx i r 0).val = (i 0).val := by
  unfold DotDims.lhsIdx
  rw [dif_neg (show ¬(0 : Fin S2048x16.rank) ∈ dot_S2048x16_S16x1_S2048x1_1_0_0_1_n_n.lhsBatch by decide), dif_pos (show (0 : Fin S2048x16.rank) ∈ dot_S2048x16_S16x1_S2048x1_1_0_0_1_n_n.lhsNonContracting by decide)]
  rfl
/-- … and takes the contracted index as its column; the right operand takes it as its row … -/
theorem second_lhs_chan (i : S2048x1.Idx) (r : dot_S2048x16_S16x1_S2048x1_1_0_0_1_n_n.contr.Idx) : (dot_S2048x16_S16x1_S2048x1_1_0_0_1_n_n.lhsIdx i r 1).val = (r ⟨0, by decide⟩).val :=
  dot_S2048x16_S16x1_S2048x1_1_0_0_1_n_n.lhsIdx_val_of_single rfl i r
theorem second_rhs_chan (i : S2048x1.Idx) (r : dot_S2048x16_S16x1_S2048x1_1_0_0_1_n_n.contr.Idx) : (dot_S2048x16_S16x1_S2048x1_1_0_0_1_n_n.rhsIdx i r 0).val = (r ⟨0, by decide⟩).val :=
  dot_S2048x16_S16x1_S2048x1_1_0_0_1_n_n.rhsIdx_val_of_single rfl i r
/-- … and keeps the entry's column. -/
theorem second_rhs_col (i : S2048x1.Idx) (r : dot_S2048x16_S16x1_S2048x1_1_0_0_1_n_n.contr.Idx) : (dot_S2048x16_S16x1_S2048x1_1_0_0_1_n_n.rhsIdx i r 1).val = (i 1).val := by
  unfold DotDims.rhsIdx
  rw [dif_neg (show ¬(1 : Fin S16x1.rank) ∈ dot_S2048x16_S16x1_S2048x1_1_0_0_1_n_n.rhsBatch by decide), dif_pos (show (1 : Fin S16x1.rank) ∈ dot_S2048x16_S16x1_S2048x1_1_0_0_1_n_n.rhsNonContracting by decide)]
  rfl

/-- The second product onto zero, read at an entry: the sum over the 16 contracted indices. -/
theorem second_apply {φ₁ φ₂ : FTy} (E : FVec Ideal S2048x16 φ₁) (w : FVec Ideal S16x1 φ₂) (g : Fin 2048) (j : Fin 1) :
    FloatOps.matmul dot_S2048x16_S16x1_S2048x1_1_0_0_1_n_n none E w (constant S2048x1 .f32 0x00000000#32) (ix2 g j) = ∑ k : Fin 16, E (ix2 g k) * w (ix2 k j) := by
  rw [Ideal.matmul_constant_zero_apply, ← Equiv.sum_comp (ValueIdx.contrEquiv1 dot_S2048x16_S16x1_S2048x1_1_0_0_1_n_n 16 rfl rfl).symm]
  refine Finset.sum_congr rfl fun k _ => ?_
  have hk := ValueIdx.contrEquiv1_symm_val dot_S2048x16_S16x1_S2048x1_1_0_0_1_n_n 16 rfl rfl k
  have el : dot_S2048x16_S16x1_S2048x1_1_0_0_1_n_n.lhsIdx (ix2 g j) ((ValueIdx.contrEquiv1 dot_S2048x16_S16x1_S2048x1_1_0_0_1_n_n 16 rfl rfl).symm k) = ix2 g k := funext fun a => Fin.ext (by
    match a with
    | ⟨0, _⟩ => exact second_lhs_row _ _
    | ⟨1, _⟩ => exact (second_lhs_chan _ _).trans hk)
  have er : dot_S2048x16_S16x1_S2048x1_1_0_0_1_n_n.rhsIdx (ix2 g j) ((ValueIdx.contrEquiv1 dot_S2048x16_S16x1_S2048x1_1_0_0_1_n_n 16 rfl rfl).symm k) = ix2 k j := funext fun a => Fin.ext (by
    match a with
    | ⟨0, _⟩ => exact (second_rhs_chan _ _).trans hk
    | ⟨1, _⟩ => exact second_rhs_col _ _)
  rw [el, er]

/-- The count column broadcast along the features reads, at `(g, k)`, the column's entry `g`. -/
theorem counts_at {α : Type} (v : S2048x1.Idx → α) (g : Fin 2048) (k : Fin 32) :
    broadcastTo S2048x32 v broadcasts_S2048x1_S2048x32 (ix2 g k) = v (ix2 g (0 : Fin 1)) :=
  broadcastTo_apply v broadcasts_S2048x1_S2048x32 (ix2 g k) (ix2 g (0 : Fin 1)) (fun a => by match a with | ⟨0, _⟩ => rfl | ⟨1, _⟩ => rfl)

/-- The first bias row broadcast along the graphs reads, at `(g, j)`, the row's entry `j`. -/
theorem bias1_at {α : Type} (v : S1x16.Idx → α) (g : Fin 2048) (j : Fin 16) :
    broadcastTo S2048x16 v broadcasts_S1x16_S2048x16 (ix2 g j) = v (ix2 (0 : Fin 1) j) :=
  broadcastTo_apply v broadcasts_S1x16_S2048x16 (ix2 g j) (ix2 (0 : Fin 1) j) (fun a => by match a with | ⟨0, _⟩ => rfl | ⟨1, _⟩ => rfl)

/-- The second bias, one entry, broadcast along the graphs reads that entry everywhere. -/
theorem bias2_at {α : Type} (v : S1x1.Idx → α) (g : Fin 2048) (z : Fin 1) :
    broadcastTo S2048x1 v broadcasts_S1x1_S2048x1 (ix2 g z) = v (ix2 (0 : Fin 1) (0 : Fin 1)) :=
  broadcastTo_apply v broadcasts_S1x1_S2048x1 (ix2 g z) (ix2 (0 : Fin 1) (0 : Fin 1)) (fun a => by match a with | ⟨0, _⟩ => rfl | ⟨1, _⟩ => rfl)

/-- The head's stored value at graph `g`. -/
theorem head_apply (cn : FVec Ideal S2048x1 .f32) (sm : FVec Ideal S2048x32 .f32) (w1 : FVec Ideal S32x16 .f32) (b1 : FVec Ideal S1x16 .f32)
    (w2 : FVec Ideal S16x1 .f32) (b2 : FVec Ideal S1x1 .f32) (g : Fin 2048) (z : Fin 1) :
    k6_pay1 (F := Ideal) cn sm w1 b1 w2 b2 (ix2 g z)
      = FloatOps.addf (F := Ideal) (∑ j : Fin 16, FloatOps.maximumf (F := Ideal) (FloatOps.addf (F := Ideal) (∑ k : Fin 32,
            FloatOps.divf (F := Ideal) (sm (ix2 g k)) (FloatOps.maximumf (F := Ideal) (cn (ix2 g (0 : Fin 1))) (Scalar.ofBits .f32 0x3F800000#32)) * w1 (ix2 k j))
          (b1 (ix2 (0 : Fin 1) j))) (Scalar.ofBits .f32 0x00000000#32) * w2 (ix2 j z)) (b2 (ix2 (0 : Fin 1) (0 : Fin 1))) := by
  unfold k6_pay1
  simp only [shapeCast_self, matmul]
  rw [addf_apply, second_apply, bias2_at]
  simp only [truncf_apply, maximumf_apply, addf_apply, first_apply, divf_apply, broadcast_apply, counts_at, bias1_at]
  rfl

end Cert.KernelIdeal.HeadAt

end
-- ==== Proof.HeadStage.lean ====
/-
  The pooling head of the kernel is the reference's. Entry `g` of either is
  `(∑ j, max ((∑ k, (sums[g, k] / max(counts[g], 1)) · W₁[k, j]) + b₁[j]) 0 · W₂[j, 0]) + b₂[0]`: the kernel takes the maximum
  with one on the count COLUMN and the reference on the count VECTOR before making it a column, the kernel divides
  with the vector unit's quotient and the reference with the host's (one function on the extended reals), and the
  reference reads the counts and the two biases through its chains of broadcasts.
-/
import proofs.«155246_j18021682774333_1_alg».proof.Proof.ReadPatched
import proofs.«155246_j18021682774333_1_alg».proof.Proof.HeadAt

set_option maxRecDepth 16384

noncomputable section

open scoped BigOperators

namespace Cert.HeadStage

open Cert.ReferenceIdeal Cert.ReferenceIdeal.Gen Cert.ReferenceIdeal.ReadP Idealize.ShloMosaic Idealize.ShloMosaic.TcCoe Idealize.ShloMosaic.ValueIdx

theorem head (x0 : (⟨S200000x128, .f32⟩ : BufTy).Contents (Elt Ideal)) (x1 : (⟨S2x1250000, .i32⟩ : BufTy).Contents (Elt Ideal)) (x2 : (⟨S200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x16, .f32⟩ : BufTy).Contents (Elt Ideal)) (x10 : (⟨S16, .f32⟩ : BufTy).Contents (Elt Ideal)) (x11 : (⟨S16x1, .f32⟩ : BufTy).Contents (Elt Ideal)) (x12 : (⟨S1, .f32⟩ : BufTy).Contents (Elt Ideal)) :
    Cert.KernelIdeal.Gen.k6_pay1 (F := Ideal) (broadcastInDim S2048x1 ![0] bcast_S2048_S2048x1_0 (val_main_v134 (F := Ideal) x2)) (val_main_v130 (F := Ideal) x0 x1 x2 x3 x4 x5 x6 x7 x8)
      x9 (val_main_v141 (F := Ideal) x10) x11 (val_main_v146 (F := Ideal) x12) = val_main_v148 (F := Ideal) x0 x1 x2 x3 x4 x5 x6 x7 x8 x9 x10 x11 x12 := by
  funext i
  obtain ⟨g, z, rfl⟩ : ∃ (g : Fin 2048) (z : Fin 1), i = ix2 g z := ⟨i 0, i 1, eq_ix2 i⟩
  rw [Cert.KernelIdeal.HeadAt.head_apply]
  have l2 : ∀ j : Fin 16, lidx_main_v145 (ix2 g z) j = ix2 g j := fun j => funext fun a => by match a with | ⟨0, _⟩ => rfl | ⟨1, _⟩ => rfl
  have r2 : ∀ j : Fin 16, ridx_main_v145 (ix2 g z) j = ix2 j z := fun j => funext fun a => by match a with | ⟨0, _⟩ => rfl | ⟨1, _⟩ => rfl
  have l1 : ∀ (j : Fin 16) (k : Fin 32), lidx_main_v140 (ix2 g j) k = ix2 g k := fun j k => funext fun a => by match a with | ⟨0, _⟩ => rfl | ⟨1, _⟩ => rfl
  have r1 : ∀ (j : Fin 16) (k : Fin 32), ridx_main_v140 (ix2 g j) k = ix2 k j := fun j k => funext fun a => by match a with | ⟨0, _⟩ => rfl | ⟨1, _⟩ => rfl
  have eb1 : ∀ j : Fin 16, idx_main_v141 (idx_main_v142 (ix2 g j)) = ix1 j := fun j => funext fun a => by match a with | ⟨0, _⟩ => rfl
  have eb2 : idx_main_v146 (idx_main_v147 (ix2 g z)) = ix1 (0 : Fin 1) := funext fun a => by match a with | ⟨0, _⟩ => rfl
  have ec : ∀ k : Fin 32, idx_main_v137 (idx_main_v138 (ix2 g k)) = ix1 g := fun k => funext fun a => by match a with | ⟨0, _⟩ => rfl
  have kc : broadcastInDim S2048x1 ![0] bcast_S2048_S2048x1_0 (val_main_v134 (F := Ideal) x2) (ix2 g (0 : Fin 1)) = val_main_v134 (F := Ideal) x2 (ix1 g) :=
    broadcastInDim_apply (s := S2048) (t := S2048x1) ![0] bcast_S2048_S2048x1_0 (val_main_v134 (F := Ideal) x2) (ix2 g (0 : Fin 1)) (ix1 g)
      (fun a => by match a with | ⟨0, _⟩ => rfl)
  have kb1 : ∀ j : Fin 16, val_main_v141 (F := Ideal) x10 (ix2 (0 : Fin 1) j) = x10 (ix1 j) := fun j => by
    rw [val_main_v141_apply]; exact congrArg x10 (funext fun a => by match a with | ⟨0, _⟩ => rfl)
  have kb2 : val_main_v146 (F := Ideal) x12 (ix2 (0 : Fin 1) (0 : Fin 1)) = x12 (ix1 (0 : Fin 1)) := by
    rw [val_main_v146_apply]; exact congrArg x12 (funext fun a => by match a with | ⟨0, _⟩ => rfl)
  rw [kc, kb2]
  simp only [kb1]
  rw [val_main_v148_apply, val_main_v145_apply, val_main_v147_apply, val_main_v146_apply, eb2]
  simp only [val_main_v144_apply, val_main_v143_apply, val_main_v140_apply, val_main_v142_apply, val_main_v141_apply, val_main_call4_v0_apply,
    val_main_call4_cst_apply, val_main_v139_apply, val_main_v138_apply, val_main_v137_apply, val_main_v136_apply, val_main_v135_apply,
    val_main_cst_27_apply, l2, r2, l1, r1, eb1, ec]
  rfl

end Cert.HeadStage

end
-- ==== Proof.Boundary.lean ====
/-
  The idealized kernel's buffers at every boundary of its run, as the reference's stages of the argument arrays. The run
  alternates host stretches and kernel regions. A host stretch writes the operations' composed term of what it reads
  and leaves every other buffer alone; a region writes its result array — the dense transform or the combine of the arrays
  it found, or the pooling head's value — and leaves its inputs and every other buffer alone. Following each live buffer
  from boundary to boundary: the edge endpoints, the edge normalisation and the squared inverse-root degree are the
  reference's (a reshape to a column or a row being the reference's broadcast), each layer's transform is the reference's
  matrix product, each layer's activation the reference's, and the pooled result the reference's last stage.
-/
import proofs.«155246_j18021682774333_1_alg».proof.Proof.Dense1
import proofs.«155246_j18021682774333_1_alg».proof.Proof.Dense2
import proofs.«155246_j18021682774333_1_alg».proof.Proof.Dense3
import proofs.«155246_j18021682774333_1_alg».proof.Proof.Combine1
import proofs.«155246_j18021682774333_1_alg».proof.Proof.Combine2
import proofs.«155246_j18021682774333_1_alg».proof.Proof.Combine3
import proofs.«155246_j18021682774333_1_alg».proof.Proof.Head
import proofs.«155246_j18021682774333_1_alg».proof.Proof.Layout
import proofs.«155246_j18021682774333_1_alg».proof.Proof.Stages
import proofs.«155246_j18021682774333_1_alg».proof.Proof.HeadStage
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Boundaries 1 to 3: the host prelude (degree, inverse root, edge normalisation), one stretch at a time -/

/-! ### Boundary 1: after the first host stretch (edge endpoints, degree, its positivity and inverse root), from the launch memory -/

theorem b1_v1 : W1 m ρ c (Proc.devRef .tc main_v1) = (Cert.ReferenceIdeal.ReadP.val_main_v1 (F := Ideal) (m ((c : Thread nD τ).loc main_arg1))) := by
  show StableHlo.after hostOps0 (W0 m ρ c) _ = _
  after_results_simp <;> rfl
theorem b1_v3 : W1 m ρ c (Proc.devRef .tc main_v3) = (Cert.ReferenceIdeal.ReadP.val_main_v3 (F := Ideal) (m ((c : Thread nD τ).loc main_arg1))) := by
  show StableHlo.after hostOps0 (W0 m ρ c) _ = _
  after_results_simp <;> rfl
theorem b1_v11 : W1 m ρ c (Proc.devRef .tc main_v11) = (Cert.ReferenceIdeal.ReadP.val_main_v11 (F := Ideal) (m ((c : Thread nD τ).loc main_arg1))) := by
  show StableHlo.after hostOps0 (W0 m ρ c) _ = _
  after_results_simp <;> rfl
theorem b1_v12 : W1 m ρ c (Proc.devRef .tc main_v12) = (Cert.ReferenceIdeal.ReadP.val_main_v12 (F := Ideal) (m ((c : Thread nD τ).loc main_arg1))) := by
  show StableHlo.after hostOps0 (W0 m ρ c) _ = _
  after_results_simp <;> rfl
theorem b1_cst_3 : W1 m ρ c (Proc.devRef .tc main_cst_3) = (Cert.ReferenceIdeal.ReadP.val_main_cst_3 (F := Ideal)) := by
  show StableHlo.after hostOps0 (W0 m ρ c) _ = _
  after_results_simp <;> rfl
theorem b1_arg0 : W1 m ρ c (Proc.devRef .tc main_arg0) = (m ((c : Thread nD τ).loc main_arg0)) := by
  show StableHlo.after hostOps0 (W0 m ρ c) _ = _
  after_results_simp <;> rfl
theorem b1_arg1 : W1 m ρ c (Proc.devRef .tc main_arg1) = (m ((c : Thread nD τ).loc main_arg1)) := by
  show StableHlo.after hostOps0 (W0 m ρ c) _ = _
  after_results_simp <;> rfl
theorem b1_arg2 : W1 m ρ c (Proc.devRef .tc main_arg2) = (m ((c : Thread nD τ).loc main_arg2)) := by
  show StableHlo.after hostOps0 (W0 m ρ c) _ = _
  after_results_simp <;> rfl
theorem b1_arg3 : W1 m ρ c (Proc.devRef .tc main_arg3) = (m ((c : Thread nD τ).loc main_arg3)) := by
  show StableHlo.after hostOps0 (W0 m ρ c) _ = _
  after_results_simp <;> rfl
theorem b1_arg4 : W1 m ρ c (Proc.devRef .tc main_arg4) = (m ((c : Thread nD τ).loc main_arg4)) := by
  show StableHlo.after hostOps0 (W0 m ρ c) _ = _
  after_results_simp <;> rfl
theorem b1_arg5 : W1 m ρ c (Proc.devRef .tc main_arg5) = (m ((c : Thread nD τ).loc main_arg5)) := by
  show StableHlo.after hostOps0 (W0 m ρ c) _ = _
  after_results_simp <;> rfl
theorem b1_arg6 : W1 m ρ c (Proc.devRef .tc main_arg6) = (m ((c : Thread nD τ).loc main_arg6)) := by
  show StableHlo.after hostOps0 (W0 m ρ c) _ = _
  after_results_simp <;> rfl
theorem b1_arg7 : W1 m ρ c (Proc.devRef .tc main_arg7) = (m ((c : Thread nD τ).loc main_arg7)) := by
  show StableHlo.after hostOps0 (W0 m ρ c) _ = _
  after_results_simp <;> rfl
theorem b1_arg8 : W1 m ρ c (Proc.devRef .tc main_arg8) = (m ((c : Thread nD τ).loc main_arg8)) := by
  show StableHlo.after hostOps0 (W0 m ρ c) _ = _
  after_results_simp <;> rfl
theorem b1_arg9 : W1 m ρ c (Proc.devRef .tc main_arg9) = (m ((c : Thread nD τ).loc main_arg9)) := by
  show StableHlo.after hostOps0 (W0 m ρ c) _ = _
  after_results_simp <;> rfl
theorem b1_arg10 : W1 m ρ c (Proc.devRef .tc main_arg10) = (m ((c : Thread nD τ).loc main_arg10)) := by
  show StableHlo.after hostOps0 (W0 m ρ c) _ = _
  after_results_simp <;> rfl
theorem b1_arg11 : W1 m ρ c (Proc.devRef .tc main_arg11) = (m ((c : Thread nD τ).loc main_arg11)) := by
  show StableHlo.after hostOps0 (W0 m ρ c) _ = _
  after_results_simp <;> rfl
theorem b1_arg12 : W1 m ρ c (Proc.devRef .tc main_arg12) = (m ((c : Thread nD τ).loc main_arg12)) := by
  show StableHlo.after hostOps0 (W0 m ρ c) _ = _
  after_results_simp <;> rfl

/-! ### Boundary 2: after the called select (the inverse root where the degree is positive, zero elsewhere) -/

/-- The called select over any buffer contents: it reads the positivity bits, the inverse root and the zero constant. -/
theorem where_select (V : Valuation τ sig (Elt Ideal)) :
    StableHlo.after hostOps0_1 V (Proc.devRef .tc main_v13)
      = select (V (Proc.devRef .tc main_v11)) (V (Proc.devRef .tc main_v12)) (broadcastInDim S200000 ![] bcast_S_S200000 (V (Proc.devRef .tc main_cst_3))) := by
  after_results_simp
  rfl
theorem b2_v13 : W2 m ρ c (Proc.devRef .tc main_v13) = (Cert.ReferenceIdeal.ReadP.val_main_v13 (F := Ideal) (m ((c : Thread nD τ).loc main_arg1))) := by
  refine (where_select (W1 m ρ c)).trans ?_
  rw [b1_v11 m ρ c, b1_v12 m ρ c, b1_cst_3 m ρ c]
  rfl
theorem b2_v1 : W2 m ρ c (Proc.devRef .tc main_v1) = (Cert.ReferenceIdeal.ReadP.val_main_v1 (F := Ideal) (m ((c : Thread nD τ).loc main_arg1))) := by
  have keep : ∀ V : Valuation τ sig (Elt Ideal), StableHlo.after hostOps0_1 V (Proc.devRef .tc main_v1) = V (Proc.devRef .tc main_v1) := fun V => by after_results_simp
  exact (keep (W1 m ρ c)).trans (b1_v1 m ρ c)
theorem b2_v3 : W2 m ρ c (Proc.devRef .tc main_v3) = (Cert.ReferenceIdeal.ReadP.val_main_v3 (F := Ideal) (m ((c : Thread nD τ).loc main_arg1))) := by
  have keep : ∀ V : Valuation τ sig (Elt Ideal), StableHlo.after hostOps0_1 V (Proc.devRef .tc main_v3) = V (Proc.devRef .tc main_v3) := fun V => by after_results_simp
  exact (keep (W1 m ρ c)).trans (b1_v3 m ρ c)
theorem b2_arg0 : W2 m ρ c (Proc.devRef .tc main_arg0) = (m ((c : Thread nD τ).loc main_arg0)) := by
  have keep : ∀ V : Valuation τ sig (Elt Ideal), StableHlo.after hostOps0_1 V (Proc.devRef .tc main_arg0) = V (Proc.devRef .tc main_arg0) := fun V => by after_results_simp
  exact (keep (W1 m ρ c)).trans (b1_arg0 m ρ c)
theorem b2_arg1 : W2 m ρ c (Proc.devRef .tc main_arg1) = (m ((c : Thread nD τ).loc main_arg1)) := by
  have keep : ∀ V : Valuation τ sig (Elt Ideal), StableHlo.after hostOps0_1 V (Proc.devRef .tc main_arg1) = V (Proc.devRef .tc main_arg1) := fun V => by after_results_simp
  exact (keep (W1 m ρ c)).trans (b1_arg1 m ρ c)
theorem b2_arg2 : W2 m ρ c (Proc.devRef .tc main_arg2) = (m ((c : Thread nD τ).loc main_arg2)) := by
  have keep : ∀ V : Valuation τ sig (Elt Ideal), StableHlo.after hostOps0_1 V (Proc.devRef .tc main_arg2) = V (Proc.devRef .tc main_arg2) := fun V => by after_results_simp
  exact (keep (W1 m ρ c)).trans (b1_arg2 m ρ c)
theorem b2_arg3 : W2 m ρ c (Proc.devRef .tc main_arg3) = (m ((c : Thread nD τ).loc main_arg3)) := by
  have keep : ∀ V : Valuation τ sig (Elt Ideal), StableHlo.after hostOps0_1 V (Proc.devRef .tc main_arg3) = V (Proc.devRef .tc main_arg3) := fun V => by after_results_simp
  exact (keep (W1 m ρ c)).trans (b1_arg3 m ρ c)
theorem b2_arg4 : W2 m ρ c (Proc.devRef .tc main_arg4) = (m ((c : Thread nD τ).loc main_arg4)) := by
  have keep : ∀ V : Valuation τ sig (Elt Ideal), StableHlo.after hostOps0_1 V (Proc.devRef .tc main_arg4) = V (Proc.devRef .tc main_arg4) := fun V => by after_results_simp
  exact (keep (W1 m ρ c)).trans (b1_arg4 m ρ c)
theorem b2_arg5 : W2 m ρ c (Proc.devRef .tc main_arg5) = (m ((c : Thread nD τ).loc main_arg5)) := by
  have keep : ∀ V : Valuation τ sig (Elt Ideal), StableHlo.after hostOps0_1 V (Proc.devRef .tc main_arg5) = V (Proc.devRef .tc main_arg5) := fun V => by after_results_simp
  exact (keep (W1 m ρ c)).trans (b1_arg5 m ρ c)
theorem b2_arg6 : W2 m ρ c (Proc.devRef .tc main_arg6) = (m ((c : Thread nD τ).loc main_arg6)) := by
  have keep : ∀ V : Valuation τ sig (Elt Ideal), StableHlo.after hostOps0_1 V (Proc.devRef .tc main_arg6) = V (Proc.devRef .tc main_arg6) := fun V => by after_results_simp
  exact (keep (W1 m ρ c)).trans (b1_arg6 m ρ c)
theorem b2_arg7 : W2 m ρ c (Proc.devRef .tc main_arg7) = (m ((c : Thread nD τ).loc main_arg7)) := by
  have keep : ∀ V : Valuation τ sig (Elt Ideal), StableHlo.after hostOps0_1 V (Proc.devRef .tc main_arg7) = V (Proc.devRef .tc main_arg7) := fun V => by after_results_simp
  exact (keep (W1 m ρ c)).trans (b1_arg7 m ρ c)
theorem b2_arg8 : W2 m ρ c (Proc.devRef .tc main_arg8) = (m ((c : Thread nD τ).loc main_arg8)) := by
  have keep : ∀ V : Valuation τ sig (Elt Ideal), StableHlo.after hostOps0_1 V (Proc.devRef .tc main_arg8) = V (Proc.devRef .tc main_arg8) := fun V => by after_results_simp
  exact (keep (W1 m ρ c)).trans (b1_arg8 m ρ c)
theorem b2_arg9 : W2 m ρ c (Proc.devRef .tc main_arg9) = (m ((c : Thread nD τ).loc main_arg9)) := by
  have keep : ∀ V : Valuation τ sig (Elt Ideal), StableHlo.after hostOps0_1 V (Proc.devRef .tc main_arg9) = V (Proc.devRef .tc main_arg9) := fun V => by after_results_simp
  exact (keep (W1 m ρ c)).trans (b1_arg9 m ρ c)
theorem b2_arg10 : W2 m ρ c (Proc.devRef .tc main_arg10) = (m ((c : Thread nD τ).loc main_arg10)) := by
  have keep : ∀ V : Valuation τ sig (Elt Ideal), StableHlo.after hostOps0_1 V (Proc.devRef .tc main_arg10) = V (Proc.devRef .tc main_arg10) := fun V => by after_results_simp
  exact (keep (W1 m ρ c)).trans (b1_arg10 m ρ c)
theorem b2_arg11 : W2 m ρ c (Proc.devRef .tc main_arg11) = (m ((c : Thread nD τ).loc main_arg11)) := by
  have keep : ∀ V : Valuation τ sig (Elt Ideal), StableHlo.after hostOps0_1 V (Proc.devRef .tc main_arg11) = V (Proc.devRef .tc main_arg11) := fun V => by after_results_simp
  exact (keep (W1 m ρ c)).trans (b1_arg11 m ρ c)
theorem b2_arg12 : W2 m ρ c (Proc.devRef .tc main_arg12) = (m ((c : Thread nD τ).loc main_arg12)) := by
  have keep : ∀ V : Valuation τ sig (Elt Ideal), StableHlo.after hostOps0_1 V (Proc.devRef .tc main_arg12) = V (Proc.devRef .tc main_arg12) := fun V => by after_results_simp
  exact (keep (W1 m ρ c)).trans (b1_arg12 m ρ c)

/-! ### Boundary 3: after the second host stretch (squared inverse root as a column, gathered endpoints' product as a column) -/

theorem b3_v1 : W3 m ρ c (Proc.devRef .tc main_v1) = (Cert.ReferenceIdeal.ReadP.val_main_v1 (F := Ideal) (m ((c : Thread nD τ).loc main_arg1))) := by
  have keep : ∀ V : Valuation τ sig (Elt Ideal), StableHlo.after hostOps0_2 V (Proc.devRef .tc main_v1) = V (Proc.devRef .tc main_v1) := fun V => by after_results_simp
  exact (keep (W2 m ρ c)).trans (b2_v1 m ρ c)
theorem b3_v3 : W3 m ρ c (Proc.devRef .tc main_v3) = (Cert.ReferenceIdeal.ReadP.val_main_v3 (F := Ideal) (m ((c : Thread nD τ).loc main_arg1))) := by
  have keep : ∀ V : Valuation τ sig (Elt Ideal), StableHlo.after hostOps0_2 V (Proc.devRef .tc main_v3) = V (Proc.devRef .tc main_v3) := fun V => by after_results_simp
  exact (keep (W2 m ρ c)).trans (b2_v3 m ρ c)
theorem b3_arg0 : W3 m ρ c (Proc.devRef .tc main_arg0) = (m ((c : Thread nD τ).loc main_arg0)) := by
  have keep : ∀ V : Valuation τ sig (Elt Ideal), StableHlo.after hostOps0_2 V (Proc.devRef .tc main_arg0) = V (Proc.devRef .tc main_arg0) := fun V => by after_results_simp
  exact (keep (W2 m ρ c)).trans (b2_arg0 m ρ c)
theorem b3_arg1 : W3 m ρ c (Proc.devRef .tc main_arg1) = (m ((c : Thread nD τ).loc main_arg1)) := by
  have keep : ∀ V : Valuation τ sig (Elt Ideal), StableHlo.after hostOps0_2 V (Proc.devRef .tc main_arg1) = V (Proc.devRef .tc main_arg1) := fun V => by after_results_simp
  exact (keep (W2 m ρ c)).trans (b2_arg1 m ρ c)
theorem b3_arg2 : W3 m ρ c (Proc.devRef .tc main_arg2) = (m ((c : Thread nD τ).loc main_arg2)) := by
  have keep : ∀ V : Valuation τ sig (Elt Ideal), StableHlo.after hostOps0_2 V (Proc.devRef .tc main_arg2) = V (Proc.devRef .tc main_arg2) := fun V => by after_results_simp
  exact (keep (W2 m ρ c)).trans (b2_arg2 m ρ c)
theorem b3_arg3 : W3 m ρ c (Proc.devRef .tc main_arg3) = (m ((c : Thread nD τ).loc main_arg3)) := by
  have keep : ∀ V : Valuation τ sig (Elt Ideal), StableHlo.after hostOps0_2 V (Proc.devRef .tc main_arg3) = V (Proc.devRef .tc main_arg3) := fun V => by after_results_simp
  exact (keep (W2 m ρ c)).trans (b2_arg3 m ρ c)
theorem b3_arg4 : W3 m ρ c (Proc.devRef .tc main_arg4) = (m ((c : Thread nD τ).loc main_arg4)) := by
  have keep : ∀ V : Valuation τ sig (Elt Ideal), StableHlo.after hostOps0_2 V (Proc.devRef .tc main_arg4) = V (Proc.devRef .tc main_arg4) := fun V => by after_results_simp
  exact (keep (W2 m ρ c)).trans (b2_arg4 m ρ c)
theorem b3_arg5 : W3 m ρ c (Proc.devRef .tc main_arg5) = (m ((c : Thread nD τ).loc main_arg5)) := by
  have keep : ∀ V : Valuation τ sig (Elt Ideal), StableHlo.after hostOps0_2 V (Proc.devRef .tc main_arg5) = V (Proc.devRef .tc main_arg5) := fun V => by after_results_simp
  exact (keep (W2 m ρ c)).trans (b2_arg5 m ρ c)
theorem b3_arg6 : W3 m ρ c (Proc.devRef .tc main_arg6) = (m ((c : Thread nD τ).loc main_arg6)) := by
  have keep : ∀ V : Valuation τ sig (Elt Ideal), StableHlo.after hostOps0_2 V (Proc.devRef .tc main_arg6) = V (Proc.devRef .tc main_arg6) := fun V => by after_results_simp
  exact (keep (W2 m ρ c)).trans (b2_arg6 m ρ c)
theorem b3_arg7 : W3 m ρ c (Proc.devRef .tc main_arg7) = (m ((c : Thread nD τ).loc main_arg7)) := by
  have keep : ∀ V : Valuation τ sig (Elt Ideal), StableHlo.after hostOps0_2 V (Proc.devRef .tc main_arg7) = V (Proc.devRef .tc main_arg7) := fun V => by after_results_simp
  exact (keep (W2 m ρ c)).trans (b2_arg7 m ρ c)
theorem b3_arg8 : W3 m ρ c (Proc.devRef .tc main_arg8) = (m ((c : Thread nD τ).loc main_arg8)) := by
  have keep : ∀ V : Valuation τ sig (Elt Ideal), StableHlo.after hostOps0_2 V (Proc.devRef .tc main_arg8) = V (Proc.devRef .tc main_arg8) := fun V => by after_results_simp
  exact (keep (W2 m ρ c)).trans (b2_arg8 m ρ c)
theorem b3_arg9 : W3 m ρ c (Proc.devRef .tc main_arg9) = (m ((c : Thread nD τ).loc main_arg9)) := by
  have keep : ∀ V : Valuation τ sig (Elt Ideal), StableHlo.after hostOps0_2 V (Proc.devRef .tc main_arg9) = V (Proc.devRef .tc main_arg9) := fun V => by after_results_simp
  exact (keep (W2 m ρ c)).trans (b2_arg9 m ρ c)
theorem b3_arg10 : W3 m ρ c (Proc.devRef .tc main_arg10) = (m ((c : Thread nD τ).loc main_arg10)) := by
  have keep : ∀ V : Valuation τ sig (Elt Ideal), StableHlo.after hostOps0_2 V (Proc.devRef .tc main_arg10) = V (Proc.devRef .tc main_arg10) := fun V => by after_results_simp
  exact (keep (W2 m ρ c)).trans (b2_arg10 m ρ c)
theorem b3_arg11 : W3 m ρ c (Proc.devRef .tc main_arg11) = (m ((c : Thread nD τ).loc main_arg11)) := by
  have keep : ∀ V : Valuation τ sig (Elt Ideal), StableHlo.after hostOps0_2 V (Proc.devRef .tc main_arg11) = V (Proc.devRef .tc main_arg11) := fun V => by after_results_simp
  exact (keep (W2 m ρ c)).trans (b2_arg11 m ρ c)
theorem b3_arg12 : W3 m ρ c (Proc.devRef .tc main_arg12) = (m ((c : Thread nD τ).loc main_arg12)) := by
  have keep : ∀ V : Valuation τ sig (Elt Ideal), StableHlo.after hostOps0_2 V (Proc.devRef .tc main_arg12) = V (Proc.devRef .tc main_arg12) := fun V => by after_results_simp
  exact (keep (W2 m ρ c)).trans (b2_arg12 m ρ c)
theorem b3_v15 : W3 m ρ c (Proc.devRef .tc main_v15) = (Cert.ReferenceIdeal.ReadP.val_main_v44 (F := Ideal) (m ((c : Thread nD τ).loc main_arg1))) := by
  have key : ∀ V : Valuation τ sig (Elt Ideal), V (Proc.devRef .tc main_v13) = (Cert.ReferenceIdeal.ReadP.val_main_v13 (F := Ideal) (m ((c : Thread nD τ).loc main_arg1))) → StableHlo.after hostOps0_2 V (Proc.devRef .tc main_v15) = (Cert.ReferenceIdeal.ReadP.val_main_v44 (F := Ideal) (m ((c : Thread nD τ).loc main_arg1))) := by
    intro V h13
    after_results_simp
    rw [h13]
    exact (Cert.Layout.column_200000 _ _ Cert.ReferenceIdeal.Gen.bcast_S200000_S200000x1_0).trans rfl
  exact key (W2 m ρ c) (b2_v13 m ρ c)
theorem b3_v31 : W3 m ρ c (Proc.devRef .tc main_v31) = (Cert.ReferenceIdeal.ReadP.val_main_v37 (F := Ideal) (m ((c : Thread nD τ).loc main_arg1))) := by
  have key : ∀ V : Valuation τ sig (Elt Ideal), V (Proc.devRef .tc main_v13) = (Cert.ReferenceIdeal.ReadP.val_main_v13 (F := Ideal) (m ((c : Thread nD τ).loc main_arg1))) → V (Proc.devRef .tc main_v1) = (Cert.ReferenceIdeal.ReadP.val_main_v1 (F := Ideal) (m ((c : Thread nD τ).loc main_arg1))) → V (Proc.devRef .tc main_v3) = (Cert.ReferenceIdeal.ReadP.val_main_v3 (F := Ideal) (m ((c : Thread nD τ).loc main_arg1))) →
      StableHlo.after hostOps0_2 V (Proc.devRef .tc main_v31) = (Cert.ReferenceIdeal.ReadP.val_main_v37 (F := Ideal) (m ((c : Thread nD τ).loc main_arg1))) := by
    intro V h13 h1 h3
    after_results_simp
    rw [h13, h1, h3]
    exact (Cert.Layout.column_1250000 _ _ Cert.ReferenceIdeal.Gen.bcast_S1250000_S1250000x1_0).trans rfl
  exact key (W2 m ρ c) (b2_v13 m ρ c) (b2_v1 m ρ c) (b2_v3 m ρ c)

/-! ## Boundary 4 -/

theorem b4_v32 : W4 m ρ c (Proc.devRef .tc main_v32) = (Cert.ReferenceIdeal.ReadP.val_main_v14 (F := Ideal) (m ((c : Thread nD τ).loc main_arg0)) (m ((c : Thread nD τ).loc main_arg3))) :=
  (W4_arr m ρ c 2).trans ((Dense1.final (V3 m ρ) c).trans (by
    show Dense1.rowsTimes (W3 m ρ c (Proc.devRef .tc main_arg0)) (W3 m ρ c (Proc.devRef .tc main_arg3)) = _
    rw [b3_arg0 m ρ c, b3_arg3 m ρ c]
    exact Cert.Stages.dense1 ..))
theorem b4_v1 : W4 m ρ c (Proc.devRef .tc main_v1) = (Cert.ReferenceIdeal.ReadP.val_main_v1 (F := Ideal) (m ((c : Thread nD τ).loc main_arg1))) := (W4_of_ne m ρ c main_v1 (by decide)).trans (b3_v1 m ρ c)
theorem b4_v3 : W4 m ρ c (Proc.devRef .tc main_v3) = (Cert.ReferenceIdeal.ReadP.val_main_v3 (F := Ideal) (m ((c : Thread nD τ).loc main_arg1))) := (W4_of_ne m ρ c main_v3 (by decide)).trans (b3_v3 m ρ c)
theorem b4_v31 : W4 m ρ c (Proc.devRef .tc main_v31) = (Cert.ReferenceIdeal.ReadP.val_main_v37 (F := Ideal) (m ((c : Thread nD τ).loc main_arg1))) := (W4_of_ne m ρ c main_v31 (by decide)).trans (b3_v31 m ρ c)
theorem b4_v15 : W4 m ρ c (Proc.devRef .tc main_v15) = (Cert.ReferenceIdeal.ReadP.val_main_v44 (F := Ideal) (m ((c : Thread nD τ).loc main_arg1))) := (W4_of_ne m ρ c main_v15 (by decide)).trans (b3_v15 m ρ c)
theorem b4_arg4 : W4 m ρ c (Proc.devRef .tc main_arg4) = (m ((c : Thread nD τ).loc main_arg4)) := (W4_of_ne m ρ c main_arg4 (by decide)).trans (b3_arg4 m ρ c)
theorem b4_arg5 : W4 m ρ c (Proc.devRef .tc main_arg5) = (m ((c : Thread nD τ).loc main_arg5)) := (W4_of_ne m ρ c main_arg5 (by decide)).trans (b3_arg5 m ρ c)
theorem b4_arg6 : W4 m ρ c (Proc.devRef .tc main_arg6) = (m ((c : Thread nD τ).loc main_arg6)) := (W4_of_ne m ρ c main_arg6 (by decide)).trans (b3_arg6 m ρ c)
theorem b4_arg7 : W4 m ρ c (Proc.devRef .tc main_arg7) = (m ((c : Thread nD τ).loc main_arg7)) := (W4_of_ne m ρ c main_arg7 (by decide)).trans (b3_arg7 m ρ c)
theorem b4_arg8 : W4 m ρ c (Proc.devRef .tc main_arg8) = (m ((c : Thread nD τ).loc main_arg8)) := (W4_of_ne m ρ c main_arg8 (by decide)).trans (b3_arg8 m ρ c)
theorem b4_arg2 : W4 m ρ c (Proc.devRef .tc main_arg2) = (m ((c : Thread nD τ).loc main_arg2)) := (W4_of_ne m ρ c main_arg2 (by decide)).trans (b3_arg2 m ρ c)
theorem b4_arg10 : W4 m ρ c (Proc.devRef .tc main_arg10) = (m ((c : Thread nD τ).loc main_arg10)) := (W4_of_ne m ρ c main_arg10 (by decide)).trans (b3_arg10 m ρ c)
theorem b4_arg12 : W4 m ρ c (Proc.devRef .tc main_arg12) = (m ((c : Thread nD τ).loc main_arg12)) := (W4_of_ne m ρ c main_arg12 (by decide)).trans (b3_arg12 m ρ c)
theorem b4_arg9 : W4 m ρ c (Proc.devRef .tc main_arg9) = (m ((c : Thread nD τ).loc main_arg9)) := (W4_of_ne m ρ c main_arg9 (by decide)).trans (b3_arg9 m ρ c)
theorem b4_arg11 : W4 m ρ c (Proc.devRef .tc main_arg11) = (m ((c : Thread nD τ).loc main_arg11)) := (W4_of_ne m ρ c main_arg11 (by decide)).trans (b3_arg11 m ρ c)

/-! ## Boundary 5 -/

theorem b5_v44 : W5 m ρ c (Proc.devRef .tc main_v44) = (Cert.ReferenceIdeal.ReadP.val_main_v42 (F := Ideal) (m ((c : Thread nD τ).loc main_arg0)) (m ((c : Thread nD τ).loc main_arg1)) (m ((c : Thread nD τ).loc main_arg3))) := by
  show StableHlo.after hostOps1 (W4 m ρ c) _ = _
  after_results_simp
  rw [b4_v1 m ρ c, b4_v3 m ρ c, b4_v31 m ρ c, b4_v32 m ρ c]
  rfl
theorem b5_v32 : W5 m ρ c (Proc.devRef .tc main_v32) = (Cert.ReferenceIdeal.ReadP.val_main_v14 (F := Ideal) (m ((c : Thread nD τ).loc main_arg0)) (m ((c : Thread nD τ).loc main_arg3))) := by
  show StableHlo.after hostOps1 (W4 m ρ c) _ = _
  after_results_simp
  exact b4_v32 m ρ c
theorem b5_v15 : W5 m ρ c (Proc.devRef .tc main_v15) = (Cert.ReferenceIdeal.ReadP.val_main_v44 (F := Ideal) (m ((c : Thread nD τ).loc main_arg1))) := by
  show StableHlo.after hostOps1 (W4 m ρ c) _ = _
  after_results_simp
  exact b4_v15 m ρ c
theorem b5_v45 : W5 m ρ c (Proc.devRef .tc main_v45) = (Cert.ReferenceIdeal.ReadP.val_main_v48 (F := Ideal) (m ((c : Thread nD τ).loc main_arg4))) := by
  show StableHlo.after hostOps1 (W4 m ρ c) _ = _
  after_results_simp
  rw [b4_arg4 m ρ c]
  exact (Cert.Layout.row_64 _ _ Cert.ReferenceIdeal.Gen.bcast_S64_S1x64_1).trans rfl
theorem b5_v1 : W5 m ρ c (Proc.devRef .tc main_v1) = (Cert.ReferenceIdeal.ReadP.val_main_v1 (F := Ideal) (m ((c : Thread nD τ).loc main_arg1))) := by
  show StableHlo.after hostOps1 (W4 m ρ c) _ = _
  after_results_simp
  exact b4_v1 m ρ c
theorem b5_v3 : W5 m ρ c (Proc.devRef .tc main_v3) = (Cert.ReferenceIdeal.ReadP.val_main_v3 (F := Ideal) (m ((c : Thread nD τ).loc main_arg1))) := by
  show StableHlo.after hostOps1 (W4 m ρ c) _ = _
  after_results_simp
  exact b4_v3 m ρ c
theorem b5_v31 : W5 m ρ c (Proc.devRef .tc main_v31) = (Cert.ReferenceIdeal.ReadP.val_main_v37 (F := Ideal) (m ((c : Thread nD τ).loc main_arg1))) := by
  show StableHlo.after hostOps1 (W4 m ρ c) _ = _
  after_results_simp
  exact b4_v31 m ρ c
theorem b5_arg5 : W5 m ρ c (Proc.devRef .tc main_arg5) = (m ((c : Thread nD τ).loc main_arg5)) := by
  show StableHlo.after hostOps1 (W4 m ρ c) _ = _
  after_results_simp
  exact b4_arg5 m ρ c
theorem b5_arg6 : W5 m ρ c (Proc.devRef .tc main_arg6) = (m ((c : Thread nD τ).loc main_arg6)) := by
  show StableHlo.after hostOps1 (W4 m ρ c) _ = _
  after_results_simp
  exact b4_arg6 m ρ c
theorem b5_arg7 : W5 m ρ c (Proc.devRef .tc main_arg7) = (m ((c : Thread nD τ).loc main_arg7)) := by
  show StableHlo.after hostOps1 (W4 m ρ c) _ = _
  after_results_simp
  exact b4_arg7 m ρ c
theorem b5_arg8 : W5 m ρ c (Proc.devRef .tc main_arg8) = (m ((c : Thread nD τ).loc main_arg8)) := by
  show StableHlo.after hostOps1 (W4 m ρ c) _ = _
  after_results_simp
  exact b4_arg8 m ρ c
theorem b5_arg2 : W5 m ρ c (Proc.devRef .tc main_arg2) = (m ((c : Thread nD τ).loc main_arg2)) := by
  show StableHlo.after hostOps1 (W4 m ρ c) _ = _
  after_results_simp
  exact b4_arg2 m ρ c
theorem b5_arg10 : W5 m ρ c (Proc.devRef .tc main_arg10) = (m ((c : Thread nD τ).loc main_arg10)) := by
  show StableHlo.after hostOps1 (W4 m ρ c) _ = _
  after_results_simp
  exact b4_arg10 m ρ c
theorem b5_arg12 : W5 m ρ c (Proc.devRef .tc main_arg12) = (m ((c : Thread nD τ).loc main_arg12)) := by
  show StableHlo.after hostOps1 (W4 m ρ c) _ = _
  after_results_simp
  exact b4_arg12 m ρ c
theorem b5_arg9 : W5 m ρ c (Proc.devRef .tc main_arg9) = (m ((c : Thread nD τ).loc main_arg9)) := by
  show StableHlo.after hostOps1 (W4 m ρ c) _ = _
  after_results_simp
  exact b4_arg9 m ρ c
theorem b5_arg11 : W5 m ρ c (Proc.devRef .tc main_arg11) = (m ((c : Thread nD τ).loc main_arg11)) := by
  show StableHlo.after hostOps1 (W4 m ρ c) _ = _
  after_results_simp
  exact b4_arg11 m ρ c

/-! ## Boundary 6 -/

theorem b6_v46 : W6 m ρ c (Proc.devRef .tc main_v46) = (Cert.ReferenceIdeal.ReadP.val_main_v51 (F := Ideal) (m ((c : Thread nD τ).loc main_arg0)) (m ((c : Thread nD τ).loc main_arg1)) (m ((c : Thread nD τ).loc main_arg3)) (m ((c : Thread nD τ).loc main_arg4))) :=
  (W6_arr m ρ c 4).trans ((Combine1.final (V5 m ρ) c).trans (by
    show Combine1.combine (W5 m ρ c (Proc.devRef .tc main_v44)) (W5 m ρ c (Proc.devRef .tc main_v32)) (W5 m ρ c (Proc.devRef .tc main_v15)) (W5 m ρ c (Proc.devRef .tc main_v45)) = _
    rw [b5_v44 m ρ c, b5_v32 m ρ c, b5_v15 m ρ c, b5_v45 m ρ c]
    exact Cert.Stages.combine1 ..))
theorem b6_v1 : W6 m ρ c (Proc.devRef .tc main_v1) = (Cert.ReferenceIdeal.ReadP.val_main_v1 (F := Ideal) (m ((c : Thread nD τ).loc main_arg1))) := (W6_of_ne m ρ c main_v1 (by decide)).trans (b5_v1 m ρ c)
theorem b6_v3 : W6 m ρ c (Proc.devRef .tc main_v3) = (Cert.ReferenceIdeal.ReadP.val_main_v3 (F := Ideal) (m ((c : Thread nD τ).loc main_arg1))) := (W6_of_ne m ρ c main_v3 (by decide)).trans (b5_v3 m ρ c)
theorem b6_v31 : W6 m ρ c (Proc.devRef .tc main_v31) = (Cert.ReferenceIdeal.ReadP.val_main_v37 (F := Ideal) (m ((c : Thread nD τ).loc main_arg1))) := (W6_of_ne m ρ c main_v31 (by decide)).trans (b5_v31 m ρ c)
theorem b6_v15 : W6 m ρ c (Proc.devRef .tc main_v15) = (Cert.ReferenceIdeal.ReadP.val_main_v44 (F := Ideal) (m ((c : Thread nD τ).loc main_arg1))) :=
  (W6_arr m ρ c 2).trans ((((dat1 (V5 m ρ) c).arrAt_in 2 rfl _).trans (A_eq1 (V5 m ρ) c 2)).trans (b5_v15 m ρ c))
theorem b6_arg5 : W6 m ρ c (Proc.devRef .tc main_arg5) = (m ((c : Thread nD τ).loc main_arg5)) := (W6_of_ne m ρ c main_arg5 (by decide)).trans (b5_arg5 m ρ c)
theorem b6_arg6 : W6 m ρ c (Proc.devRef .tc main_arg6) = (m ((c : Thread nD τ).loc main_arg6)) := (W6_of_ne m ρ c main_arg6 (by decide)).trans (b5_arg6 m ρ c)
theorem b6_arg7 : W6 m ρ c (Proc.devRef .tc main_arg7) = (m ((c : Thread nD τ).loc main_arg7)) := (W6_of_ne m ρ c main_arg7 (by decide)).trans (b5_arg7 m ρ c)
theorem b6_arg8 : W6 m ρ c (Proc.devRef .tc main_arg8) = (m ((c : Thread nD τ).loc main_arg8)) := (W6_of_ne m ρ c main_arg8 (by decide)).trans (b5_arg8 m ρ c)
theorem b6_arg2 : W6 m ρ c (Proc.devRef .tc main_arg2) = (m ((c : Thread nD τ).loc main_arg2)) := (W6_of_ne m ρ c main_arg2 (by decide)).trans (b5_arg2 m ρ c)
theorem b6_arg10 : W6 m ρ c (Proc.devRef .tc main_arg10) = (m ((c : Thread nD τ).loc main_arg10)) := (W6_of_ne m ρ c main_arg10 (by decide)).trans (b5_arg10 m ρ c)
theorem b6_arg12 : W6 m ρ c (Proc.devRef .tc main_arg12) = (m ((c : Thread nD τ).loc main_arg12)) := (W6_of_ne m ρ c main_arg12 (by decide)).trans (b5_arg12 m ρ c)
theorem b6_arg9 : W6 m ρ c (Proc.devRef .tc main_arg9) = (m ((c : Thread nD τ).loc main_arg9)) := (W6_of_ne m ρ c main_arg9 (by decide)).trans (b5_arg9 m ρ c)
theorem b6_arg11 : W6 m ρ c (Proc.devRef .tc main_arg11) = (m ((c : Thread nD τ).loc main_arg11)) := (W6_of_ne m ρ c main_arg11 (by decide)).trans (b5_arg11 m ρ c)

/-! ## Boundary 7 -/

theorem b7_v47 : W7 m ρ c (Proc.devRef .tc main_v47) = (Cert.ReferenceIdeal.ReadP.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  (W7_arr m ρ c 2).trans ((Dense2.final (V6 m ρ) c).trans (by
    show Dense2.rowsTimes (W6 m ρ c (Proc.devRef .tc main_v46)) (W6 m ρ c (Proc.devRef .tc main_arg5)) = _
    rw [b6_v46 m ρ c, b6_arg5 m ρ c]
    exact Cert.Stages.dense2 ..))
theorem b7_v1 : W7 m ρ c (Proc.devRef .tc main_v1) = (Cert.ReferenceIdeal.ReadP.val_main_v1 (F := Ideal) (m ((c : Thread nD τ).loc main_arg1))) := (W7_of_ne m ρ c main_v1 (by decide)).trans (b6_v1 m ρ c)
theorem b7_v3 : W7 m ρ c (Proc.devRef .tc main_v3) = (Cert.ReferenceIdeal.ReadP.val_main_v3 (F := Ideal) (m ((c : Thread nD τ).loc main_arg1))) := (W7_of_ne m ρ c main_v3 (by decide)).trans (b6_v3 m ρ c)
theorem b7_v31 : W7 m ρ c (Proc.devRef .tc main_v31) = (Cert.ReferenceIdeal.ReadP.val_main_v37 (F := Ideal) (m ((c : Thread nD τ).loc main_arg1))) := (W7_of_ne m ρ c main_v31 (by decide)).trans (b6_v31 m ρ c)
theorem b7_v15 : W7 m ρ c (Proc.devRef .tc main_v15) = (Cert.ReferenceIdeal.ReadP.val_main_v44 (F := Ideal) (m ((c : Thread nD τ).loc main_arg1))) := (W7_of_ne m ρ c main_v15 (by decide)).trans (b6_v15 m ρ c)
theorem b7_arg6 : W7 m ρ c (Proc.devRef .tc main_arg6) = (m ((c : Thread nD τ).loc main_arg6)) := (W7_of_ne m ρ c main_arg6 (by decide)).trans (b6_arg6 m ρ c)
theorem b7_arg7 : W7 m ρ c (Proc.devRef .tc main_arg7) = (m ((c : Thread nD τ).loc main_arg7)) := (W7_of_ne m ρ c main_arg7 (by decide)).trans (b6_arg7 m ρ c)
theorem b7_arg8 : W7 m ρ c (Proc.devRef .tc main_arg8) = (m ((c : Thread nD τ).loc main_arg8)) := (W7_of_ne m ρ c main_arg8 (by decide)).trans (b6_arg8 m ρ c)
theorem b7_arg2 : W7 m ρ c (Proc.devRef .tc main_arg2) = (m ((c : Thread nD τ).loc main_arg2)) := (W7_of_ne m ρ c main_arg2 (by decide)).trans (b6_arg2 m ρ c)
theorem b7_arg10 : W7 m ρ c (Proc.devRef .tc main_arg10) = (m ((c : Thread nD τ).loc main_arg10)) := (W7_of_ne m ρ c main_arg10 (by decide)).trans (b6_arg10 m ρ c)
theorem b7_arg12 : W7 m ρ c (Proc.devRef .tc main_arg12) = (m ((c : Thread nD τ).loc main_arg12)) := (W7_of_ne m ρ c main_arg12 (by decide)).trans (b6_arg12 m ρ c)
theorem b7_arg9 : W7 m ρ c (Proc.devRef .tc main_arg9) = (m ((c : Thread nD τ).loc main_arg9)) := (W7_of_ne m ρ c main_arg9 (by decide)).trans (b6_arg9 m ρ c)
theorem b7_arg11 : W7 m ρ c (Proc.devRef .tc main_arg11) = (m ((c : Thread nD τ).loc main_arg11)) := (W7_of_ne m ρ c main_arg11 (by decide)).trans (b6_arg11 m ρ c)

/-! ## Boundary 8 -/

theorem b8_v59 : W8 m ρ c (Proc.devRef .tc main_v59) = (Cert.ReferenceIdeal.ReadP.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps3 (W7 m ρ c) _ = _
  after_results_simp
  rw [b7_v1 m ρ c, b7_v3 m ρ c, b7_v31 m ρ c, b7_v47 m ρ c]
  rfl
theorem b8_v47 : W8 m ρ c (Proc.devRef .tc main_v47) = (Cert.ReferenceIdeal.ReadP.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps3 (W7 m ρ c) _ = _
  after_results_simp
  exact b7_v47 m ρ c
theorem b8_v15 : W8 m ρ c (Proc.devRef .tc main_v15) = (Cert.ReferenceIdeal.ReadP.val_main_v44 (F := Ideal) (m ((c : Thread nD τ).loc main_arg1))) := by
  show StableHlo.after hostOps3 (W7 m ρ c) _ = _
  after_results_simp
  exact b7_v15 m ρ c
theorem b8_v60 : W8 m ρ c (Proc.devRef .tc main_v60) = (Cert.ReferenceIdeal.ReadP.val_main_v86 (F := Ideal) (m ((c : Thread nD τ).loc main_arg6))) := by
  show StableHlo.after hostOps3 (W7 m ρ c) _ = _
  after_results_simp
  rw [b7_arg6 m ρ c]
  exact (Cert.Layout.row_64 _ _ Cert.ReferenceIdeal.Gen.bcast_S64_S1x64_1).trans rfl
theorem b8_v1 : W8 m ρ c (Proc.devRef .tc main_v1) = (Cert.ReferenceIdeal.ReadP.val_main_v1 (F := Ideal) (m ((c : Thread nD τ).loc main_arg1))) := by
  show StableHlo.after hostOps3 (W7 m ρ c) _ = _
  after_results_simp
  exact b7_v1 m ρ c
theorem b8_v3 : W8 m ρ c (Proc.devRef .tc main_v3) = (Cert.ReferenceIdeal.ReadP.val_main_v3 (F := Ideal) (m ((c : Thread nD τ).loc main_arg1))) := by
  show StableHlo.after hostOps3 (W7 m ρ c) _ = _
  after_results_simp
  exact b7_v3 m ρ c
theorem b8_v31 : W8 m ρ c (Proc.devRef .tc main_v31) = (Cert.ReferenceIdeal.ReadP.val_main_v37 (F := Ideal) (m ((c : Thread nD τ).loc main_arg1))) := by
  show StableHlo.after hostOps3 (W7 m ρ c) _ = _
  after_results_simp
  exact b7_v31 m ρ c
theorem b8_arg7 : W8 m ρ c (Proc.devRef .tc main_arg7) = (m ((c : Thread nD τ).loc main_arg7)) := by
  show StableHlo.after hostOps3 (W7 m ρ c) _ = _
  after_results_simp
  exact b7_arg7 m ρ c
theorem b8_arg8 : W8 m ρ c (Proc.devRef .tc main_arg8) = (m ((c : Thread nD τ).loc main_arg8)) := by
  show StableHlo.after hostOps3 (W7 m ρ c) _ = _
  after_results_simp
  exact b7_arg8 m ρ c
theorem b8_arg2 : W8 m ρ c (Proc.devRef .tc main_arg2) = (m ((c : Thread nD τ).loc main_arg2)) := by
  show StableHlo.after hostOps3 (W7 m ρ c) _ = _
  after_results_simp
  exact b7_arg2 m ρ c
theorem b8_arg10 : W8 m ρ c (Proc.devRef .tc main_arg10) = (m ((c : Thread nD τ).loc main_arg10)) := by
  show StableHlo.after hostOps3 (W7 m ρ c) _ = _
  after_results_simp
  exact b7_arg10 m ρ c
theorem b8_arg12 : W8 m ρ c (Proc.devRef .tc main_arg12) = (m ((c : Thread nD τ).loc main_arg12)) := by
  show StableHlo.after hostOps3 (W7 m ρ c) _ = _
  after_results_simp
  exact b7_arg12 m ρ c
theorem b8_arg9 : W8 m ρ c (Proc.devRef .tc main_arg9) = (m ((c : Thread nD τ).loc main_arg9)) := by
  show StableHlo.after hostOps3 (W7 m ρ c) _ = _
  after_results_simp
  exact b7_arg9 m ρ c
theorem b8_arg11 : W8 m ρ c (Proc.devRef .tc main_arg11) = (m ((c : Thread nD τ).loc main_arg11)) := by
  show StableHlo.after hostOps3 (W7 m ρ c) _ = _
  after_results_simp
  exact b7_arg11 m ρ c

/-! ## Boundary 9 -/

theorem b9_v61 : W9 m ρ c (Proc.devRef .tc main_v61) = (Cert.ReferenceIdeal.ReadP.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  (W9_arr m ρ c 4).trans ((Combine2.final (V8 m ρ) c).trans (by
    show Combine2.combine (W8 m ρ c (Proc.devRef .tc main_v59)) (W8 m ρ c (Proc.devRef .tc main_v47)) (W8 m ρ c (Proc.devRef .tc main_v15)) (W8 m ρ c (Proc.devRef .tc main_v60)) = _
    rw [b8_v59 m ρ c, b8_v47 m ρ c, b8_v15 m ρ c, b8_v60 m ρ c]
    exact Cert.Stages.combine2 ..))
theorem b9_v1 : W9 m ρ c (Proc.devRef .tc main_v1) = (Cert.ReferenceIdeal.ReadP.val_main_v1 (F := Ideal) (m ((c : Thread nD τ).loc main_arg1))) := (W9_of_ne m ρ c main_v1 (by decide)).trans (b8_v1 m ρ c)
theorem b9_v3 : W9 m ρ c (Proc.devRef .tc main_v3) = (Cert.ReferenceIdeal.ReadP.val_main_v3 (F := Ideal) (m ((c : Thread nD τ).loc main_arg1))) := (W9_of_ne m ρ c main_v3 (by decide)).trans (b8_v3 m ρ c)
theorem b9_v31 : W9 m ρ c (Proc.devRef .tc main_v31) = (Cert.ReferenceIdeal.ReadP.val_main_v37 (F := Ideal) (m ((c : Thread nD τ).loc main_arg1))) := (W9_of_ne m ρ c main_v31 (by decide)).trans (b8_v31 m ρ c)
theorem b9_v15 : W9 m ρ c (Proc.devRef .tc main_v15) = (Cert.ReferenceIdeal.ReadP.val_main_v44 (F := Ideal) (m ((c : Thread nD τ).loc main_arg1))) :=
  (W9_arr m ρ c 2).trans ((((dat3 (V8 m ρ) c).arrAt_in 2 rfl _).trans (A_eq3 (V8 m ρ) c 2)).trans (b8_v15 m ρ c))
theorem b9_arg7 : W9 m ρ c (Proc.devRef .tc main_arg7) = (m ((c : Thread nD τ).loc main_arg7)) := (W9_of_ne m ρ c main_arg7 (by decide)).trans (b8_arg7 m ρ c)
theorem b9_arg8 : W9 m ρ c (Proc.devRef .tc main_arg8) = (m ((c : Thread nD τ).loc main_arg8)) := (W9_of_ne m ρ c main_arg8 (by decide)).trans (b8_arg8 m ρ c)
theorem b9_arg2 : W9 m ρ c (Proc.devRef .tc main_arg2) = (m ((c : Thread nD τ).loc main_arg2)) := (W9_of_ne m ρ c main_arg2 (by decide)).trans (b8_arg2 m ρ c)
theorem b9_arg10 : W9 m ρ c (Proc.devRef .tc main_arg10) = (m ((c : Thread nD τ).loc main_arg10)) := (W9_of_ne m ρ c main_arg10 (by decide)).trans (b8_arg10 m ρ c)
theorem b9_arg12 : W9 m ρ c (Proc.devRef .tc main_arg12) = (m ((c : Thread nD τ).loc main_arg12)) := (W9_of_ne m ρ c main_arg12 (by decide)).trans (b8_arg12 m ρ c)
theorem b9_arg9 : W9 m ρ c (Proc.devRef .tc main_arg9) = (m ((c : Thread nD τ).loc main_arg9)) := (W9_of_ne m ρ c main_arg9 (by decide)).trans (b8_arg9 m ρ c)
theorem b9_arg11 : W9 m ρ c (Proc.devRef .tc main_arg11) = (m ((c : Thread nD τ).loc main_arg11)) := (W9_of_ne m ρ c main_arg11 (by decide)).trans (b8_arg11 m ρ c)

/-! ## Boundary 10 -/

theorem b10_v62 : W10 m ρ c (Proc.devRef .tc main_v62) = (Cert.ReferenceIdeal.ReadP.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (W10_arr m ρ c 2).trans ((Dense3.final (V9 m ρ) c).trans (by
    show Dense3.rowsTimes (W9 m ρ c (Proc.devRef .tc main_v61)) (W9 m ρ c (Proc.devRef .tc main_arg7)) = _
    rw [b9_v61 m ρ c, b9_arg7 m ρ c]
    exact Cert.Stages.dense3 ..))
theorem b10_v1 : W10 m ρ c (Proc.devRef .tc main_v1) = (Cert.ReferenceIdeal.ReadP.val_main_v1 (F := Ideal) (m ((c : Thread nD τ).loc main_arg1))) := (W10_of_ne m ρ c main_v1 (by decide)).trans (b9_v1 m ρ c)
theorem b10_v3 : W10 m ρ c (Proc.devRef .tc main_v3) = (Cert.ReferenceIdeal.ReadP.val_main_v3 (F := Ideal) (m ((c : Thread nD τ).loc main_arg1))) := (W10_of_ne m ρ c main_v3 (by decide)).trans (b9_v3 m ρ c)
theorem b10_v31 : W10 m ρ c (Proc.devRef .tc main_v31) = (Cert.ReferenceIdeal.ReadP.val_main_v37 (F := Ideal) (m ((c : Thread nD τ).loc main_arg1))) := (W10_of_ne m ρ c main_v31 (by decide)).trans (b9_v31 m ρ c)
theorem b10_v15 : W10 m ρ c (Proc.devRef .tc main_v15) = (Cert.ReferenceIdeal.ReadP.val_main_v44 (F := Ideal) (m ((c : Thread nD τ).loc main_arg1))) := (W10_of_ne m ρ c main_v15 (by decide)).trans (b9_v15 m ρ c)
theorem b10_arg8 : W10 m ρ c (Proc.devRef .tc main_arg8) = (m ((c : Thread nD τ).loc main_arg8)) := (W10_of_ne m ρ c main_arg8 (by decide)).trans (b9_arg8 m ρ c)
theorem b10_arg2 : W10 m ρ c (Proc.devRef .tc main_arg2) = (m ((c : Thread nD τ).loc main_arg2)) := (W10_of_ne m ρ c main_arg2 (by decide)).trans (b9_arg2 m ρ c)
theorem b10_arg10 : W10 m ρ c (Proc.devRef .tc main_arg10) = (m ((c : Thread nD τ).loc main_arg10)) := (W10_of_ne m ρ c main_arg10 (by decide)).trans (b9_arg10 m ρ c)
theorem b10_arg12 : W10 m ρ c (Proc.devRef .tc main_arg12) = (m ((c : Thread nD τ).loc main_arg12)) := (W10_of_ne m ρ c main_arg12 (by decide)).trans (b9_arg12 m ρ c)
theorem b10_arg9 : W10 m ρ c (Proc.devRef .tc main_arg9) = (m ((c : Thread nD τ).loc main_arg9)) := (W10_of_ne m ρ c main_arg9 (by decide)).trans (b9_arg9 m ρ c)
theorem b10_arg11 : W10 m ρ c (Proc.devRef .tc main_arg11) = (m ((c : Thread nD τ).loc main_arg11)) := (W10_of_ne m ρ c main_arg11 (by decide)).trans (b9_arg11 m ρ c)

/-! ## Boundary 11 -/

theorem b11_v74 : W11 m ρ c (Proc.devRef .tc main_v74) = (Cert.ReferenceIdeal.ReadP.val_main_v118 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps5 (W10 m ρ c) _ = _
  after_results_simp
  rw [b10_v1 m ρ c, b10_v3 m ρ c, b10_v31 m ρ c, b10_v62 m ρ c]
  rfl
theorem b11_v62 : W11 m ρ c (Proc.devRef .tc main_v62) = (Cert.ReferenceIdeal.ReadP.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps5 (W10 m ρ c) _ = _
  after_results_simp
  exact b10_v62 m ρ c
theorem b11_v15 : W11 m ρ c (Proc.devRef .tc main_v15) = (Cert.ReferenceIdeal.ReadP.val_main_v44 (F := Ideal) (m ((c : Thread nD τ).loc main_arg1))) := by
  show StableHlo.after hostOps5 (W10 m ρ c) _ = _
  after_results_simp
  exact b10_v15 m ρ c
theorem b11_v75 : W11 m ρ c (Proc.devRef .tc main_v75) = (Cert.ReferenceIdeal.ReadP.val_main_v124 (F := Ideal) (m ((c : Thread nD τ).loc main_arg8))) := by
  show StableHlo.after hostOps5 (W10 m ρ c) _ = _
  after_results_simp
  rw [b10_arg8 m ρ c]
  exact (Cert.Layout.row_32 _ _ Cert.ReferenceIdeal.Gen.bcast_S32_S1x32_1).trans rfl
theorem b11_arg2 : W11 m ρ c (Proc.devRef .tc main_arg2) = (m ((c : Thread nD τ).loc main_arg2)) := by
  show StableHlo.after hostOps5 (W10 m ρ c) _ = _
  after_results_simp
  exact b10_arg2 m ρ c
theorem b11_arg10 : W11 m ρ c (Proc.devRef .tc main_arg10) = (m ((c : Thread nD τ).loc main_arg10)) := by
  show StableHlo.after hostOps5 (W10 m ρ c) _ = _
  after_results_simp
  exact b10_arg10 m ρ c
theorem b11_arg12 : W11 m ρ c (Proc.devRef .tc main_arg12) = (m ((c : Thread nD τ).loc main_arg12)) := by
  show StableHlo.after hostOps5 (W10 m ρ c) _ = _
  after_results_simp
  exact b10_arg12 m ρ c
theorem b11_arg9 : W11 m ρ c (Proc.devRef .tc main_arg9) = (m ((c : Thread nD τ).loc main_arg9)) := by
  show StableHlo.after hostOps5 (W10 m ρ c) _ = _
  after_results_simp
  exact b10_arg9 m ρ c
theorem b11_arg11 : W11 m ρ c (Proc.devRef .tc main_arg11) = (m ((c : Thread nD τ).loc main_arg11)) := by
  show StableHlo.after hostOps5 (W10 m ρ c) _ = _
  after_results_simp
  exact b10_arg11 m ρ c

/-! ## Boundary 12 -/

theorem b12_v76 : W12 m ρ c (Proc.devRef .tc main_v76) = (Cert.ReferenceIdeal.ReadP.val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W12_arr m ρ c 4).trans ((Combine3.final (V11 m ρ) c).trans (by
    show Combine3.combine (W11 m ρ c (Proc.devRef .tc main_v74)) (W11 m ρ c (Proc.devRef .tc main_v62)) (W11 m ρ c (Proc.devRef .tc main_v15)) (W11 m ρ c (Proc.devRef .tc main_v75)) = _
    rw [b11_v74 m ρ c, b11_v62 m ρ c, b11_v15 m ρ c, b11_v75 m ρ c]
    exact Cert.Stages.combine3 ..))
theorem b12_arg2 : W12 m ρ c (Proc.devRef .tc main_arg2) = (m ((c : Thread nD τ).loc main_arg2)) := (W12_of_ne m ρ c main_arg2 (by decide)).trans (b11_arg2 m ρ c)
theorem b12_arg10 : W12 m ρ c (Proc.devRef .tc main_arg10) = (m ((c : Thread nD τ).loc main_arg10)) := (W12_of_ne m ρ c main_arg10 (by decide)).trans (b11_arg10 m ρ c)
theorem b12_arg12 : W12 m ρ c (Proc.devRef .tc main_arg12) = (m ((c : Thread nD τ).loc main_arg12)) := (W12_of_ne m ρ c main_arg12 (by decide)).trans (b11_arg12 m ρ c)
theorem b12_arg9 : W12 m ρ c (Proc.devRef .tc main_arg9) = (m ((c : Thread nD τ).loc main_arg9)) := (W12_of_ne m ρ c main_arg9 (by decide)).trans (b11_arg9 m ρ c)
theorem b12_arg11 : W12 m ρ c (Proc.devRef .tc main_arg11) = (m ((c : Thread nD τ).loc main_arg11)) := (W12_of_ne m ρ c main_arg11 (by decide)).trans (b11_arg11 m ρ c)

/-! ## Boundary 13 -/

theorem b13_v79 : W13 m ρ c (Proc.devRef .tc main_v79) = (Cert.ReferenceIdeal.ReadP.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps6 (W12 m ρ c) _ = _
  after_results_simp
  rw [b12_v76 m ρ c, b12_arg2 m ρ c]
  rfl
theorem b13_v84 : W13 m ρ c (Proc.devRef .tc main_v84) = (broadcastInDim Cert.ReferenceIdeal.S2048x1 ![0] Cert.ReferenceIdeal.Gen.bcast_S2048_S2048x1_0 (Cert.ReferenceIdeal.ReadP.val_main_v134 (F := Ideal) (m ((c : Thread nD τ).loc main_arg2)))) := by
  show StableHlo.after hostOps6 (W12 m ρ c) _ = _
  after_results_simp
  rw [b12_arg2 m ρ c]
  exact (Cert.Layout.column_2048 _ _ Cert.ReferenceIdeal.Gen.bcast_S2048_S2048x1_0).trans rfl
theorem b13_arg9 : W13 m ρ c (Proc.devRef .tc main_arg9) = (m ((c : Thread nD τ).loc main_arg9)) := by
  show StableHlo.after hostOps6 (W12 m ρ c) _ = _
  after_results_simp
  exact b12_arg9 m ρ c
theorem b13_v85 : W13 m ρ c (Proc.devRef .tc main_v85) = (Cert.ReferenceIdeal.ReadP.val_main_v141 (F := Ideal) (m ((c : Thread nD τ).loc main_arg10))) := by
  show StableHlo.after hostOps6 (W12 m ρ c) _ = _
  after_results_simp
  rw [b12_arg10 m ρ c]
  exact (Cert.Layout.row_16 _ _ Cert.ReferenceIdeal.Gen.bcast_S16_S1x16_1).trans rfl
theorem b13_arg11 : W13 m ρ c (Proc.devRef .tc main_arg11) = (m ((c : Thread nD τ).loc main_arg11)) := by
  show StableHlo.after hostOps6 (W12 m ρ c) _ = _
  after_results_simp
  exact b12_arg11 m ρ c
theorem b13_v86 : W13 m ρ c (Proc.devRef .tc main_v86) = (Cert.ReferenceIdeal.ReadP.val_main_v146 (F := Ideal) (m ((c : Thread nD τ).loc main_arg12))) := by
  show StableHlo.after hostOps6 (W12 m ρ c) _ = _
  after_results_simp
  rw [b12_arg12 m ρ c]
  exact (Cert.Layout.row_1 _ _ Cert.ReferenceIdeal.Gen.bcast_S1_S1x1_1).trans rfl

/-! ## Boundary 14 -/

theorem b14_v87 : W14 m ρ c (Proc.devRef .tc main_v87) = (Cert.ReferenceIdeal.ReadP.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W14_arr m ρ c 6).trans ((Head.final (V13 m ρ) c).trans (by
    show k6_pay1 (F := Ideal) (W13 m ρ c (Proc.devRef .tc main_v84)) (W13 m ρ c (Proc.devRef .tc main_v79)) (W13 m ρ c (Proc.devRef .tc main_arg9)) (W13 m ρ c (Proc.devRef .tc main_v85)) (W13 m ρ c (Proc.devRef .tc main_arg11)) (W13 m ρ c (Proc.devRef .tc main_v86)) = _
    rw [b13_v79 m ρ c, b13_v84 m ρ c, b13_arg9 m ρ c, b13_v85 m ρ c, b13_arg11 m ρ c, b13_v86 m ρ c]
    exact Cert.HeadStage.head ..))

end Cert.KernelIdeal.Boundary

end
-- ==== Proof.lean ====
/- The proof of `Cert.Claim`. The three frames: the two kernel programs' are the generated frame certificates; the
   reference has no kernel, and its frame is its run with the result dropped. The idealized kernel is the kernel's own
   text read on the extended reals (no rewrite was applied), so `preserves` is trivial. For `algebraic`: the idealized
   kernel's run ends with its result buffer at the last boundary's contents, which, followed boundary by boundary
   (Proof/Boundary.lean), is the reference's last stage of the argument arrays; the reference's run ends at that stage of
   its own arguments, and the two memories agree on the arguments. -/
import proofs.«155246_j18021682774333_1_alg».proof.Defs
import proofs.«155246_j18021682774333_1_alg».proof.Proof.Gen.Kernel
import proofs.«155246_j18021682774333_1_alg».proof.Proof.Gen.Kernel.Frame
import proofs.«155246_j18021682774333_1_alg».proof.Proof.Gen.KernelIdeal
import proofs.«155246_j18021682774333_1_alg».proof.Proof.Gen.KernelIdeal.Frame
import proofs.«155246_j18021682774333_1_alg».proof.Proof.Gen.ReferenceIdeal
import proofs.«155246_j18021682774333_1_alg».proof.Proof.Gen.Pre_finite_inputs
import proofs.«155246_j18021682774333_1_alg».proof.Proof.RunPatched
import proofs.«155246_j18021682774333_1_alg».proof.Proof.ReadPatched
import proofs.«155246_j18021682774333_1_alg».proof.Proof.ResultRun
import proofs.«155246_j18021682774333_1_alg».proof.Proof.Boundary
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end, from memories agreeing on the arguments, with one result: the reference's last stage of the arguments. -/
theorem algebraic : Cert.algebraic_KernelIdeal_ReferenceIdeal := by
  intro m ρ m' ρ' _ hagree
  refine ⟨fun c => Cert.KernelIdeal.Gen.W14 m ρ c (Proc.devRef .tc Cert.KernelIdeal.main_v87), Cert.KernelIdeal.ResultRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v148_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Boundary.b14_v87 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
